-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S_ : Shape := ⟨0, ![]⟩
abbrev S100000 : Shape := ⟨1, ![100000]⟩
abbrev S1x1600000 : Shape := ⟨2, ![1, 1600000]⟩
abbrev S1600000x1 : Shape := ⟨2, ![1600000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  slices_S2x1600000_S1x1600000_1_0 : S2x1600000.Slices ![1, 0] S1x1600000
  shapeCasts_S1x1600000_S1600000 : S1x1600000.ShapeCasts S1600000
  bcast_S1600000_S1600000x1_0 : S1600000.BroadcastsInDim S1600000x1 (![0] : Fin 1 → Fin S1600000x1.rank)
  reducesTo_S100000_S_d0 : S100000.ReducesTo [0] S_
  scatter_S100000_S1600000x1_S1600000_n_0_0_1_wf : ScatterDims.WF S100000 S1600000x1 S1600000 [] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def fn_part4 {F : FTy → Type} [FloatOps F] (main_arg1 : IVec S2x1600000 32) (main_arg2 : FVec F S1600000 .f32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_cst_28 : FVec F S_ .f32 := constant S_ .f32 0x00000000#32
  let main_v74 : FVec F S100000 .f32 := broadcastInDim S100000 ![] bcast_S_S100000 main_cst_28
  let main_v75 : IVec S1x1600000 32 := (extractStridedSlice S1x1600000 ![1, 0] · slices_S2x1600000_S1x1600000_1_0) main_arg1
  let main_v76 : IVec S1600000 32 := shapeCast S1600000 main_v75 shapeCasts_S1x1600000_S1600000
  let main_v77 : IVec S1600000x1 32 := broadcastInDim S1600000x1 ![0] bcast_S1600000_S1600000x1_0 main_v76
  let main_v78 : FVec F S100000 .f32 := (fun x i u => Host.scatterAdd scatter_S100000_S1600000x1_S1600000_n_0_0_1 x i u) main_v74 main_v77 main_arg2
  let main_cst_29 : FVec F S_ .f32 := constant S_ .f32 0x3F800000#32
  let main_v79 : FVec F S100000 .f32 := broadcastInDim S100000 ![] bcast_S_S100000 main_cst_29
  let main_v80 : FVec F S100000 .f32 := addf main_v78 main_v79
  let main_cst_30 : FVec F S_ .f32 := constant S_ .f32 0x00000000#32
  let main_v81 : FVec F S100000 .f32 := broadcastInDim S100000 ![] bcast_S_S100000 main_cst_30
  let main_v82 : IVec S100000 1 := cmpf .ogt main_v80 main_v81
  let main_c_31 : IVec S_ 1 := constantI S_ 1 1#1
  let main_v83 : IVec S_ 1 := (fun x v => Host.reduce IntOp.andi x v reducesTo_S100000_S_d0 h_S_) main_v82 main_c_31
  let main_v84 : IVec S_ 1 := andi main_v73 main_v83
  main_v84

def fn_part3 {F : FTy → Type} [FloatOps F] (main_arg1 : IVec S2x1600000 32) (main_arg2 : FVec F S1600000 .f32) (main_arg12 : FVec F S128x64 .f32) (main_arg13 : FVec F S64 .f32) (main_arg14 : FVec F S128x64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg1 main_arg2 main_arg15 main_v63 main_v67

def fn_part2 {F : FTy → Type} [FloatOps F] (main_arg1 : IVec S2x1600000 32) (main_arg2 : FVec F S1600000 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg2 main_arg12 main_arg13 main_arg14 main_arg15 main_v48 main_v49 main_v50

def fn_part1 {F : FTy → Type} [FloatOps F] (main_arg1 : IVec S2x1600000 32) (main_arg2 : FVec F S1600000 .f32) (main_arg5 : FVec F S64 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S1600000 .f32) (main_arg3 : FVec F S100000x64 .f32) (main_arg4 : FVec F S128x64 .f32) (main_arg5 : FVec F S64 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_arg14 : FVec F S128x64 .f32) (main_arg15 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg2 main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x64 : Shape := ⟨2, ![1, 64]⟩
abbrev S5000x128 : Shape := ⟨2, ![5000, 128]⟩
abbrev S5000x1 : Shape := ⟨2, ![5000, 1]⟩
abbrev S5000x64 : Shape := ⟨2, ![5000, 64]⟩
abbrev S64x64 : Shape := ⟨2, ![64, 64]⟩

abbrev nBuf : Space → Nat
  | .hbm => 73
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000x64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S128x64, .f32⟩
  | .hbm, ⟨15, _⟩ => ⟨S64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000, .f32⟩
  | .hbm, ⟨65, _⟩ => ⟨S100000x1, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S128x64, .f32⟩
  | .local _ .vmem, ⟨9, _⟩ => ⟨S1x64, .f32⟩
  | .local _ .vmem, ⟨10, _⟩ => ⟨S128x64, .f32⟩
  | .local _ .vmem, ⟨11, _⟩ => ⟨S1x64, .f32⟩
  | .local _ .vmem, ⟨12, _⟩ => ⟨S128x64, .f32⟩
  | .local _ .vmem, ⟨13, _⟩ => ⟨S1x64, .f32⟩
  | .local _ .vmem, ⟨14, _⟩ => ⟨S128x64, .f32⟩
  | .local _ .vmem, ⟨15, _⟩ => ⟨S1x64, .f32⟩
  | .local _ .vmem, ⟨16, _⟩ => ⟨S128x64, .f32⟩
  | .local _ .vmem, ⟨17, _⟩ => ⟨S1x64, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S5000x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S128x64_S64x64_0_0 : ∀ a, (![0, 0] : Fin 2 → Nat) a + S64x64.size a ≤ S128x64.size a
  h_S64x64 : 0 < S64x64.numel
  inb_S128x64_S64x64_64_0 : ∀ a, (![64, 0] : Fin 2 → Nat) a + S64x64.size a ≤ S128x64.size a
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x64.size a ≤ S128x64.size a
  hwx0_14 : ∀ i : grid0.Coords, EltTy.bits .f32 = 32 ∨ (Rect.block (s := S128x64) S128x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5000x64.size a ≤ S100000x64.size a
  hwx0_16 : ∀ i : grid0.Coords, EltTy.bits .f32 = 32 ∨ (Rect.block (s := S100000x64) S5000x64.size (cc0_transform_16 i) (hinb0_16 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v45) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v46) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v47) S5000x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 205
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000x64, .f32⟩
  | 4 => ⟨S128x64, .f32⟩
  | 5 => ⟨S64, .f32⟩
  | 6 => ⟨S128x64, .f32⟩
  | 7 => ⟨S64, .f32⟩
  | 8 => ⟨S128x64, .f32⟩
  | 9 => ⟨S64, .f32⟩
  | 10 => ⟨S128x64, .f32⟩
  | 11 => ⟨S64, .f32⟩
  | 12 => ⟨S128x64, .f32⟩
  | 13 => ⟨S64, .f32⟩
  | 14 => ⟨S128x64, .f32⟩
  | 15 => ⟨S64, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S100000x128, .f32⟩
  | 74 => ⟨S100000x64, .f32⟩
  | 75 => ⟨S1x64, .f32⟩
  | 76 => ⟨S100000x64, .f32⟩
  | 77 => ⟨S100000x64, .f32⟩
  | 78 => ⟨S100000x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S1600000, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S100000, .f32⟩
  | 125 => ⟨S100000x1, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x128, .f32⟩
  | 5 => ⟨S100000x64, .f32⟩
  | 6 => ⟨S1x64, .f32⟩
  | 7 => ⟨S100000x64, .f32⟩
  | 8 => ⟨S100000x64, .f32⟩
  | 9 => ⟨S100000x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S100000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x64, .f32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S100000, .f32⟩
  | 56 => ⟨S100000x1, .f32⟩
  | 57 => ⟨S100000x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S100000x64, .f32⟩
  | 64 => ⟨S100000x128, .f32⟩
  | 65 => ⟨S100000x64, .f32⟩
  | 66 => ⟨S1x64, .f32⟩
  | 67 => ⟨S100000x64, .f32⟩
  | 68 => ⟨S100000x64, .f32⟩
  | 69 => ⟨S100000x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_9 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_11 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_13 : Ref sig .tc := ⟨.hbm, 109, rfl⟩
abbrev main_v78 : Ref sig .tc := ⟨.hbm, 110, rfl⟩
abbrev main_v79 : Ref sig .tc := ⟨.hbm, 111, rfl⟩
abbrev main_c_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_15 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_16 : Ref sig .tc := ⟨.hbm, 140, rfl⟩
abbrev main_v106 : Ref sig .tc := ⟨.hbm, 141, rfl⟩
abbrev main_v107 : Ref sig .tc := ⟨.hbm, 142, rfl⟩
abbrev main_cst_17 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_18 : Ref sig .tc := ⟨.hbm, 147, rfl⟩
abbrev main_v111 : Ref sig .tc := ⟨.hbm, 148, rfl⟩
abbrev main_v112 : Ref sig .tc := ⟨.hbm, 149, rfl⟩
abbrev main_c_19 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_20 : Ref sig .tc := ⟨.hbm, 157, rfl⟩
abbrev main_v119 : Ref sig .tc := ⟨.hbm, 158, rfl⟩
abbrev main_v120 : Ref sig .tc := ⟨.hbm, 159, rfl⟩
abbrev main_c_21 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_c_22 : Ref sig .tc := ⟨.hbm, 168, rfl⟩
abbrev main_v128 : Ref sig .tc := ⟨.hbm, 169, rfl⟩
abbrev main_v129 : Ref sig .tc := ⟨.hbm, 170, rfl⟩
abbrev main_c_23 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_24 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_25 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibRealLinear.lean ====
/-
  Linearity of a weighted aggregation on the extended reals, for entries that are real numbers.

  On the extended reals multiplication does not distribute over addition at the infinities, so a sum of products may
  be regrouped only where the numbers involved are reals. Here: `IsReal` (an extended real that is the coercion of a
  real), closed under products; the coercion of a finite sum of reals is the sum of the coercions (`coe_sum`); and the
  law `conv_eq` — for real weights w(e), real rows x(e, ·), a real row x(·), a real scalar d and a real column p(·),

      Σ_k ((0 + Σ_e [P e] w(e)·x(e,k)) + d·x(k)) · p(k)  =  (0 + Σ_e [P e] w(e)·Σ_k x(e,k)·p(k)) + d·Σ_k x(k)·p(k)

  (aggregate the selected rows, add a scaled row, then contract with a column = contract every row first, then
  aggregate and add), over any finite index types `Fin E`, `Fin K` and any decidable selection `P`.
-/
import Mathlib.Data.EReal.Operations
import Mathlib.Algebra.BigOperators.Fin
import Mathlib.Tactic.Ring
import Mathlib.Tactic.Choose

noncomputable section

namespace Cert.LibRealLinear

/-- An extended real that is a real number. -/
def IsReal (x : EReal) : Prop := ∃ r : ℝ, x = (r : EReal)

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem isReal_coe (r : ℝ) : IsReal (r : EReal) := ⟨r, rfl⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: aggregate, add the self term, then project = project, then aggregate and add the self term. -/
theorem conv_real {E K : ℕ} (P : Fin E → Prop) [DecidablePred P] (nrm : Fin E → ℝ) (xs : Fin E → Fin K → ℝ)
    (x : Fin K → ℝ) (d : ℝ) (w : Fin K → ℝ) :
    ∑ k, ((0 + ∑ e, if P e then nrm e * xs e k else 0) + d * x k) * w k
      = (0 + ∑ e, if P e then nrm e * ∑ k, xs e k * w k else 0) + d * ∑ k, x k * w k := by
  simp only [zero_add, add_mul, Finset.sum_add_distrib, Finset.sum_mul, Finset.mul_sum]
  congr 1
  · rw [Finset.sum_comm]
    refine Finset.sum_congr rfl fun e _ => ?_
    split_ifs
    · exact Finset.sum_congr rfl fun k _ => by ring
    · simp
  · exact Finset.sum_congr rfl fun k _ => by ring

/-- The same on the extended reals, for entries that are reals. -/
theorem conv_coe {E K : ℕ} (P : Fin E → Prop) [DecidablePred P] (nrm : Fin E → ℝ) (xs : Fin E → Fin K → ℝ)
    (x : Fin K → ℝ) (d : ℝ) (w : Fin K → ℝ) :
    ∑ k, (((0 : EReal) + ∑ e, if P e then (nrm e : EReal) * (xs e k : EReal) else 0) + (d : EReal) * (x k : EReal))
        * (w k : EReal)
      = ((0 : EReal) + ∑ e, if P e then (nrm e : EReal) * ∑ k, (xs e k : EReal) * (w k : EReal) else 0)
        + (d : EReal) * ∑ k, (x k : EReal) * (w k : EReal) := by
  have h := congrArg (fun r : ℝ => (r : EReal)) (conv_real P nrm xs x d w)
  simp only [coe_sum, EReal.coe_add, EReal.coe_mul, EReal.coe_zero, apply_ite (fun r : ℝ => (r : EReal))] at h
  exact h

/-- Aggregating feature rows and projecting, against projecting and aggregating: equal when every entry is a real. -/
theorem conv_eq {E K : ℕ} (P : Fin E → Prop) [DecidablePred P] (nrm : Fin E → EReal) (xs : Fin E → Fin K → EReal)
    (x : Fin K → EReal) (d : EReal) (w : Fin K → EReal)
    (hn : ∀ e, IsReal (nrm e)) (hxs : ∀ e k, IsReal (xs e k)) (hx : ∀ k, IsReal (x k)) (hd : IsReal d)
    (hw : ∀ k, IsReal (w k)) :
    ∑ k, (((0 : EReal) + ∑ e, if P e then nrm e * xs e k else 0) + d * x k) * w k
      = ((0 : EReal) + ∑ e, if P e then nrm e * ∑ k, xs e k * w k else 0) + d * ∑ k, x k * w k := by
  choose nr hnr using hn
  choose xr hxr using hxs
  choose x' hx' using hx
  obtain ⟨d', rfl⟩ := hd
  choose w' hw' using hw
  obtain rfl : nrm = fun e => (nr e : EReal) := funext hnr
  obtain rfl : xs = fun e k => (xr e k : EReal) := funext fun e => funext fun k => hxr e k
  obtain rfl : x = fun k => (x' k : EReal) := funext hx'
  obtain rfl : w = fun k => (w' k : EReal) := funext hw'
  exact conv_coe P nr xr x' d' w'

end Cert.LibRealLinear

end
-- ==== Proof.Spec.lean ====
/-
  The mathematics shared by the two programs, over the extended reals.

  A node's graph-convolved row is, in one program, the product of an aggregated feature row with the projection
  matrix, and in the other the aggregation of projected rows. With every number a real the two are one value, by
  distributivity and by exchanging the sum over edges with the sum over features. The gated recurrent cell on top of
  the three convolved rows is the same expression in both programs, once a product with a matrix whose rows are two
  stacked halves is split into the two products with the halves.
-/
import proofs.«157769_j1855425872360_2_alg».proof.Proof.LibRealLinear
import Mathlib.Algebra.BigOperators.Fin
import Idealize.ShloMosaic.PureOps.Ideal

noncomputable section

namespace Cert.Spec

open Idealize.ShloMosaic

export Cert.LibRealLinear (IsReal isReal_coe coe_sum conv_real conv_coe conv_eq)

/-- A gate before its nonlinearity: the convolved row times the upper half of the weights, the hidden row times the
    lower half, and the bias. -/
def gate (a b : Fin 64 → EReal) (W1 W2 : Fin 64 → Fin 64 → EReal) (bl : Fin 64 → EReal) (q : Fin 64) : EReal :=
  ((∑ k : Fin 64, a k * W1 k q) + ∑ k : Fin 64, b k * W2 k q) + bl q

/-- One entry of the new hidden state from a node's three convolved rows and its hidden row. -/
def cell (xz xr xh h : Fin 64 → EReal) (Wz1 Wz2 Wr1 Wr2 Wh1 Wh2 : Fin 64 → Fin 64 → EReal)
    (bz br bh : Fin 64 → EReal) (j : Fin 64) : EReal :=
  Ideal.logistic (gate xz h Wz1 Wz2 bz j + xz j) * h j
    + (Ideal.ofBits .f32 0x3F800000#32 - Ideal.logistic (gate xz h Wz1 Wz2 bz j + xz j))
      * (Ideal.tanh (gate xh (fun q => h q * Ideal.logistic (gate xr h Wr1 Wr2 br q + xr q)) Wh1 Wh2 bh j) + xh j)

/-- Position k of the upper half, and of the lower half, among 128 stacked positions. -/
def lo (k : Fin 64) : Fin 128 := Fin.castAdd 64 k
def hi (k : Fin 64) : Fin 128 := Fin.natAdd 64 k

theorem lo_val (k : Fin 64) : (lo k).val = k.val := rfl
theorem hi_val (k : Fin 64) : (hi k).val = 64 + k.val := rfl

/-- A sum over 128 positions of a row made of two stacked halves is the sum over the first half plus the sum over
    the second. -/
theorem sum_halves (f : Fin 128 → EReal) :
    ∑ k : Fin 128, f k = (∑ k : Fin 64, f (lo k)) + ∑ k : Fin 64, f (hi k) :=
  Fin.sum_univ_add (a := 64) (b := 64) f

end Cert.Spec

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.KPay.lean ====
/-
  The kernel body's arithmetic at one entry of a block of 5000 nodes.

  A block row p holds a node's aggregated feature row, its own feature row, the square of its inverse root degree and
  its hidden row. The body forms y = aggregated + square · own, projects y with the three convolution matrices and
  adds their biases (the node's three convolved rows), and feeds these and the hidden row to the gated cell. Here each
  of its values is read at an entry as a plain sum of products over the extended reals.
-/
import proofs.«157769_j1855425872360_2_alg».proof.Proof.Gen.KernelIdeal.Skeleton
import proofs.«157769_j1855425872360_2_alg».proof.Proof.Spec
import proofs.«157769_j1855425872360_2_alg».proof.Proof.LibPlainContract
import proofs.«157769_j1855425872360_2_alg».proof.Proof.LibKeepdims
import proofs.«157769_j1855425872360_2_alg».proof.Proof.LibLreluRows
import Idealize.ShloMosaic.Lib.Pipeline.Value

noncomputable section

namespace Cert.KernelIdeal.Pay

open Cert.KernelIdeal Cert.KernelIdeal.Gen Idealize.ShloMosaic Idealize.ShloMosaic.ValueIdx

/-- y at (p, k): the aggregated entry plus the squared inverse root degree times the node's own entry. -/
theorem pay2_apply (v0 v2 : Vec Ideal S5000x128 .f32) (v3 : Vec Ideal S5000x1 .f32) (p : Fin 5000) (k : Fin 128) :
    k0_pay2 v0 v2 v3 (ix2 p k) = v0 (ix2 p k) + v3 (ix2 p (0 : Fin 1)) * v2 (ix2 p k) := by
  unfold k0_pay2
  show shapeCast S5000x128 v0 shapeCasts_S5000x128_S5000x128 (ix2 p k)
      + broadcastTo S5000x128 (shapeCast S5000x1 v3 shapeCasts_S5000x1_S5000x1) broadcasts_S5000x1_S5000x128 (ix2 p k)
        * v2 (ix2 p k) = _
  rw [shapeCast_self, shapeCast_self, Cert.Lib.Keepdims.broadcastTo_a1_ab_apply]

/-- A convolved row at (p, j): y's row p times column j of the projection, plus the bias. -/
def convRow (v0 v2 : Vec Ideal S5000x128 .f32) (v3 : Vec Ideal S5000x1 .f32) (w : Vec Ideal S128x64 .f32)
    (b : Vec Ideal S1x64 .f32) (p : Fin 5000) (j : Fin 64) : EReal :=
  (∑ k : Fin 128, (v0 (ix2 p k) + v3 (ix2 p (0 : Fin 1)) * v2 (ix2 p k)) * w (ix2 k j)) + b (ix2 (0 : Fin 1) j)

theorem pay3_apply (v0 v2 : Vec Ideal S5000x128 .f32) (v3 : Vec Ideal S5000x1 .f32) (v10 : Vec Ideal S128x64 .f32)
    (v12 : Vec Ideal S1x64 .f32) (p : Fin 5000) (j : Fin 64) :
    k0_pay3 v0 v2 v3 v10 v12 (ix2 p j) = convRow v0 v2 v3 v10 v12 p j := by
  unfold k0_pay3 convRow
  show matmul dot_S5000x128_S128x64_S5000x64_1_0_0_1_n_n none (k0_pay2 v0 v2 v3) (truncf .bf16 v10 bitsLt_bf16_f32)
        (constant S5000x64 .f32 0x00000000#32) (ix2 p j)
      + broadcastTo S5000x64 (shapeCast S1x64 v12 shapeCasts_S1x64_S1x64) broadcasts_S1x64_S5000x64 (ix2 p j) = _
  rw [Cert.LibLreluRows.rowDown_apply]
  refine congrArg (· + v12 (ix2 (0 : Fin 1) j)) ?_
  refine (Cert.LibPlainContract.matmul_plain_apply 5000 128 64 none (k0_pay2 v0 v2 v3)
    (truncf .bf16 v10 bitsLt_bf16_f32) p j).trans ?_
  exact Finset.sum_congr rfl fun k _ => by rw [pay2_apply]; rfl

theorem pay4_apply (v0 v2 : Vec Ideal S5000x128 .f32) (v3 : Vec Ideal S5000x1 .f32) (v10 : Vec Ideal S128x64 .f32)
    (v12 : Vec Ideal S1x64 .f32) (p : Fin 5000) (j : Fin 64) :
    k0_pay4 v0 v2 v3 v10 v12 (ix2 p j) = convRow v0 v2 v3 v10 v12 p j := by
  unfold k0_pay4 convRow
  show matmul dot_S5000x128_S128x64_S5000x64_1_0_0_1_n_n none (k0_pay2 v0 v2 v3) (truncf .bf16 v10 bitsLt_bf16_f32)
        (constant S5000x64 .f32 0x00000000#32) (ix2 p j)
      + broadcastTo S5000x64 (shapeCast S1x64 v12 shapeCasts_S1x64_S1x64) broadcasts_S1x64_S5000x64 (ix2 p j) = _
  rw [Cert.LibLreluRows.rowDown_apply]
  refine congrArg (· + v12 (ix2 (0 : Fin 1) j)) ?_
  refine (Cert.LibPlainContract.matmul_plain_apply 5000 128 64 none (k0_pay2 v0 v2 v3)
    (truncf .bf16 v10 bitsLt_bf16_f32) p j).trans ?_
  exact Finset.sum_congr rfl fun k _ => by rw [pay2_apply]; rfl

theorem pay5_apply (v0 v2 : Vec Ideal S5000x128 .f32) (v3 : Vec Ideal S5000x1 .f32) (v10 : Vec Ideal S128x64 .f32)
    (v12 : Vec Ideal S1x64 .f32) (p : Fin 5000) (j : Fin 64) :
    k0_pay5 v0 v2 v3 v10 v12 (ix2 p j) = convRow v0 v2 v3 v10 v12 p j := by
  unfold k0_pay5 convRow
  show matmul dot_S5000x128_S128x64_S5000x64_1_0_0_1_n_n none (k0_pay2 v0 v2 v3) (truncf .bf16 v10 bitsLt_bf16_f32)
        (constant S5000x64 .f32 0x00000000#32) (ix2 p j)
      + broadcastTo S5000x64 (shapeCast S1x64 v12 shapeCasts_S1x64_S1x64) broadcasts_S1x64_S5000x64 (ix2 p j) = _
  rw [Cert.LibLreluRows.rowDown_apply]
  refine congrArg (· + v12 (ix2 (0 : Fin 1) j)) ?_
  refine (Cert.LibPlainContract.matmul_plain_apply 5000 128 64 none (k0_pay2 v0 v2 v3)
    (truncf .bf16 v10 bitsLt_bf16_f32) p j).trans ?_
  exact Finset.sum_congr rfl fun k _ => by rw [pay2_apply]; rfl

/-- A product of a [5000, 64] value with a [64, 64] matrix into the zero accumulator, at (p, q). -/
theorem mm64_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) :=
  Cert.LibPlainContract.matmul_plain_apply 5000 64 64 none a w p q

theorem logistic_apply {s : Shape} {φ : FTy} (a : FVec Ideal s φ) (i : s.Idx) :
    logistic a i = Ideal.logistic (a i) := rfl

theorem tanh_apply {s : Shape} {φ : FTy} (a : FVec Ideal s φ) (i : s.Idx) : tanh a i = Ideal.tanh (a i) := rfl

/-- The update gate at (p, q). -/
theorem pay7_apply (v9 : Vec Ideal S5000x64 .f32) (v16 : FVec Ideal S5000x64 .f32) (v32 : FVec Ideal S64x64 .bf16)
    (v33 : Vec Ideal S64x64 .f32) (v35 : Vec Ideal S1x64 .f32) (p : Fin 5000) (q : Fin 64) :
    k0_pay7 v9 v16 v32 v33 v35 (ix2 p q)
      = Ideal.logistic (Cert.Spec.gate (fun k => v16 (ix2 p k)) (fun k => v9 (ix2 p k)) (fun k q => v32 (ix2 k q))
          (fun k q => v33 (ix2 k q)) (fun q => v35 (ix2 (0 : Fin 1) q)) q + v16 (ix2 p q)) := by
  unfold k0_pay7 Cert.Spec.gate
  try dsimp only
  rw [logistic_apply, addf_apply, addf_apply, addf_apply, Cert.LibLreluRows.rowDown_apply, mm64_apply, mm64_apply]
  simp only [truncf_apply]

/-- The candidate's first product at (p, q). -/
theorem pay9_apply (v30 : FVec Ideal S5000x64 .f32) (v62 : Vec Ideal S64x64 .f32) (p : Fin 5000) (q : Fin 64) :
    k0_pay9 v30 v62 (ix2 p q) = ∑ k : Fin 64, v30 (ix2 p k) * v62 (ix2 k q) := by
  unfold k0_pay9
  try dsimp only
  rw [mm64_apply]
  simp only [truncf_apply]

/-- The candidate's second product at (p, q): the hidden row scaled by the reset gate, times the lower half. -/
theorem pay10_apply (v9 : Vec Ideal S5000x64 .f32) (v23 : FVec Ideal S5000x64 .f32) (v46 v48 : Vec Ideal S64x64 .f32)
    (v50 : Vec Ideal S1x64 .f32) (v64 : Vec Ideal S64x64 .f32) (p : Fin 5000) (q : Fin 64) :
    k0_pay10 v9 v23 v46 v48 v50 v64 (ix2 p q)
      = ∑ k : Fin 64, (v9 (ix2 p k) * Ideal.logistic (Cert.Spec.gate (fun k => v23 (ix2 p k)) (fun k => v9 (ix2 p k))
          (fun k q => v46 (ix2 k q)) (fun k q => v48 (ix2 k q)) (fun q => v50 (ix2 (0 : Fin 1) q)) k + v23 (ix2 p k)))
          * v64 (ix2 k q) := by
  unfold k0_pay10 Cert.Spec.gate
  try dsimp only
  rw [mm64_apply]
  refine Finset.sum_congr rfl fun k _ => ?_
  rw [truncf_apply, mulf_apply, logistic_apply, addf_apply, addf_apply, addf_apply, Cert.LibLreluRows.rowDown_apply,
    mm64_apply, mm64_apply]
  simp only [truncf_apply]

/-- The body's stored value at (p, q): the gated cell of the node's three convolved rows and its hidden row. -/
theorem pay1_apply (h : Vec Ideal S5000x64 .f32) (a x : Vec Ideal S5000x128 .f32) (d : Vec Ideal S5000x1 .f32)
    (wz wr wh : Vec Ideal S128x64 .f32) (bz br bh : Vec Ideal S1x64 .f32)
    (z1 z2 r1 r2 h1 h2 : Vec Ideal S64x64 .f32) (lz lr lh : Vec Ideal S1x64 .f32) (p : Fin 5000) (q : Fin 64) :
    k0_pay1 h (k0_pay5 a x d wh bh) (k0_pay7 h (k0_pay3 a x d wz bz) (k0_pay6 z1) z2 lz) (k0_pay8 lh)
        (k0_pay9 (k0_pay5 a x d wh bh) h1) (k0_pay10 h (k0_pay4 a x d wr br) r1 r2 lr h2) (ix2 p q)
      = Cert.Spec.cell (convRow a x d wz bz p) (convRow a x d wr br p) (convRow a x d wh bh p) (fun k => h (ix2 p k))
          (fun k q => z1 (ix2 k q)) (fun k q => z2 (ix2 k q)) (fun k q => r1 (ix2 k q)) (fun k q => r2 (ix2 k q))
          (fun k q => h1 (ix2 k q)) (fun k q => h2 (ix2 k q))
          (fun q => lz (ix2 (0 : Fin 1) q)) (fun q => lr (ix2 (0 : Fin 1) q)) (fun q => lh (ix2 (0 : Fin 1) q)) q := by
  unfold k0_pay1 k0_pay8 k0_pay6 Cert.Spec.cell
  try dsimp only
  rw [addf_apply, mulf_apply, mulf_apply, subf_apply, broadcast_apply, addf_apply, tanh_apply, addf_apply, addf_apply,
    Cert.LibLreluRows.rowDown_apply, pay7_apply, pay9_apply, pay10_apply, pay5_apply]
  simp only [pay3_apply, pay4_apply, pay5_apply, truncf_apply]
  rfl

end Cert.KernelIdeal.Pay

end
-- ==== Proof.LibScatterRows2.lean ====
/-
  A scatter-add of whole rows of a matrix along the leading axis, read at an element.

  The operand is an [M, C] array, the updates are T rows [T, C], and the start indices are a column [T, 1] of
  integers: row t of the updates is added into row idx[t, 0] of the operand (update window axis [1], inserted window
  axis [0], the one index component naming operand axis 0, index vector axis 1). The start index is read SIGNED and is
  not clamped: a row whose start index is negative or at least M is dropped. Read at element (m, c) the result is the
  operand's element plus the sum, over the rows t whose start index is m, of the update's element (t, c).
-/
import Idealize.ShloMosaic.PureOps.Ideal
import Idealize.ShloMosaic.Lib.ValueIdx

noncomputable section

namespace Cert.Lib.ScatterRows2

open Idealize.ShloMosaic Idealize.ShloMosaic.ValueIdx

/-- The dimension numbers of a scatter of whole rows `[T, C]` into `[M, C]` along axis 0 at a column `[T, 1]` of
    start indices; their conditions `wf` are decided on a program's literal shapes. -/
abbrev rowsDims (M T C : Nat)
    (wf : ScatterDims.WF ⟨2, ![M, C]⟩ ⟨2, ![T, 1]⟩ ⟨2, ![T, C]⟩ [1] [0] [0] 1) :
    ScatterDims ⟨2, ![M, C]⟩ ⟨2, ![T, 1]⟩ ⟨2, ![T, C]⟩ where
  updateWindowDims := [1]
  insertedWindowDims := [0]
  scatterDimsToOperandDims := [0]
  indexVectorDim := 1
  wf := wf

variable {M T C : Nat} (wf : ScatterDims.WF ⟨2, ![M, C]⟩ ⟨2, ![T, 1]⟩ ⟨2, ![T, C]⟩ [1] [0] [0] 1) {w : Nat}

/-- On the scattered axis the window of update row `t` starts at the start index `idx[t, 0]`, read signed. -/
theorem start_zero (t : Fin T) (c : Fin C) (idx : IVec ⟨2, ![T, 1]⟩ w) :
    (rowsDims M T C wf).start (ix2 t c) idx 0 = (idx (ix2 t 0)).toInt := by
  unfold ScatterDims.start
  rw [dif_pos (show (0 : Fin 2) ∈ (rowsDims M T C wf).scatterDimsToOperandDims from List.mem_singleton.mpr rfl)]
  have hsi : (rowsDims M T C wf).siIdx (ix2 t c) ⟨List.idxOf (0 : Fin 2) (rowsDims M T C wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- On the window axis the window starts at `0`. -/
theorem start_one (t : Fin T) (c : Fin C) (idx : IVec ⟨2, ![T, 1]⟩ w) :
    (rowsDims M T C wf).start (ix2 t c) idx 1 = 0 := by
  unfold ScatterDims.start
  rw [dif_neg (show ¬ (1 : Fin 2) ∈ ([0] : List (Fin 2)) from by decide)]

/-- The scattered axis is an inserted one: the window coordinate there is `0`. -/
theorem window_zero (t : Fin T) (c : Fin C) :
    (rowsDims M T C wf).window (ix2 t c) 0 = 0 := by
  unfold ScatterDims.window
  have h : ¬ (0 : Fin 2) ∈ (rowsDims M T C wf).sKept := (show ¬ (0 : Fin 2) ∈ ([1] : List (Fin 2)) from by decide)
  rw [dif_neg h]

/-- The window coordinate on operand axis 1 is the update's coordinate on its axis 1. -/
theorem window_one (t : Fin T) (c : Fin C) :
    (rowsDims M T C wf).window (ix2 t c) 1 = c.val := by
  unfold ScatterDims.window
  have h : (1 : Fin 2) ∈ (rowsDims M T C wf).sKept := (show (1 : Fin 2) ∈ ([1] : List (Fin 2)) from by decide)
  rw [dif_pos h]
  rfl

/-- Where an update row lands: update element `(t, c')` lands on operand element `(m, c)` exactly when the
    start index of row `t`, read signed, is `m`, and the window coordinates agree. -/
theorem resultIdx?_eq_some_iff (t : Fin T) (c' c : Fin C) (m : Fin M) (idx : IVec ⟨2, ![T, 1]⟩ w) :
    (rowsDims M T C wf).resultIdx? (ix2 t c') idx = some (ix2 m c) ↔
      (idx (ix2 t 0)).toInt = (m.val : Int) ∧ c' = c := by
  unfold ScatterDims.resultIdx?
  constructor
  · intro h
    split at h
    · rename_i hh
      have e := Option.some.inj h
      have e0 : ((rowsDims M T C wf).start (ix2 t c') idx 0 + (rowsDims M T C wf).window (ix2 t c') 0).toNat = m.val :=
        congrArg (fun i : (⟨2, ![M, C]⟩ : Shape).Idx => (i 0).val) e
      have e1 : ((rowsDims M T C wf).start (ix2 t c') idx 1 + (rowsDims M T C wf).window (ix2 t c') 1).toNat = c.val :=
        congrArg (fun i : (⟨2, ![M, C]⟩ : Shape).Idx => (i 1).val) e
      have h0 := (hh 0).1
      rw [start_zero, window_zero] at e0 h0
      rw [start_one, window_one] at e1
      refine ⟨?_, Fin.ext ?_⟩
      · omega
      · omega
    · cases h
  · rintro ⟨h0, rfl⟩
    have hh : ∀ a, 0 ≤ (rowsDims M T C wf).start (ix2 t c') idx a + (rowsDims M T C wf).window (ix2 t c') a ∧
        (rowsDims M T C wf).start (ix2 t c') idx a + (rowsDims M T C wf).window (ix2 t c') a <
          ((⟨2, ![M, C]⟩ : Shape).size a : Int) := by
      intro a
      match a with
      | ⟨0, _⟩ =>
        have := m.isLt
        show 0 ≤ (rowsDims M T C wf).start (ix2 t c') idx 0 + (rowsDims M T C wf).window (ix2 t c') 0 ∧
          (rowsDims M T C wf).start (ix2 t c') idx 0 + (rowsDims M T C wf).window (ix2 t c') 0 < (M : Int)
        rw [start_zero, window_zero, h0]; omega
      | ⟨1, _⟩ =>
        have := c'.isLt
        show 0 ≤ (rowsDims M T C wf).start (ix2 t c') idx 1 + (rowsDims M T C wf).window (ix2 t c') 1 ∧
          (rowsDims M T C wf).start (ix2 t c') idx 1 + (rowsDims M T C wf).window (ix2 t c') 1 < (C : Int)
        rw [start_one, window_one]; omega
    rw [dif_pos hh]
    refine congrArg some (funext fun a => Fin.ext ?_)
    match a with
    | ⟨0, _⟩ =>
      show ((rowsDims M T C wf).start (ix2 t c') idx 0 + (rowsDims M T C wf).window (ix2 t c') 0).toNat = m.val
      rw [start_zero, window_zero, h0]; omega
    | ⟨1, _⟩ =>
      show ((rowsDims M T C wf).start (ix2 t c') idx 1 + (rowsDims M T C wf).window (ix2 t c') 1).toNat = c'.val
      rw [start_one, window_one]; omega

/-- A scatter-add of whole rows read at an element: the operand's element plus the sum, over the rows whose start index
    (read signed) is `m`, of the row's element in the same column. -/
theorem scatterAdd_rows_apply {φ : FTy} (x : FVec Ideal ⟨2, ![M, C]⟩ φ) (idx : IVec ⟨2, ![T, 1]⟩ w)
    (upd : FVec Ideal ⟨2, ![T, C]⟩ φ) (m : Fin M) (c : Fin C) :
    Host.scatterAdd (F := Ideal) (rowsDims M T C wf) x idx upd (ix2 m c) =
      x (ix2 m c) + ∑ t : Fin T, if (idx (ix2 t 0)).toInt = (m.val : Int) then upd (ix2 t c) else 0 := by
  show Ideal.hostScatterAdd (rowsDims M T C wf) x idx upd (ix2 m c) = _
  unfold Ideal.hostScatterAdd
  refine congrArg (x (ix2 m c) + ·) ?_
  rw [← Finset.sum_filter]
  have key : ∀ j : (⟨2, ![T, C]⟩ : Shape).Idx,
      (rowsDims M T C wf).resultIdx? j idx = some (ix2 m c) ↔
        (idx (ix2 (j 0) 0)).toInt = (m.val : Int) ∧ j 1 = c := by
    intro j
    have e : (rowsDims M T C wf).resultIdx? j idx = (rowsDims M T C wf).resultIdx? (ix2 (j 0) (j 1)) idx :=
      congrArg (fun q => (rowsDims M T C wf).resultIdx? q idx) (eq_ix2 j)
    rw [e]
    exact resultIdx?_eq_some_iff wf (j 0) (j 1) c m idx
  refine Finset.sum_bij' (fun j _ => j 0) (fun t _ => ix2 t c) ?_ ?_ ?_ ?_ ?_
  · intro j hj
    rw [Finset.mem_filter] at hj
    exact Finset.mem_filter.2 ⟨Finset.mem_univ _, ((key j).1 hj.2).1⟩
  · intro t ht
    rw [Finset.mem_filter] at ht
    exact Finset.mem_filter.2 ⟨Finset.mem_univ _, (key (ix2 t c)).2 ⟨ht.2, rfl⟩⟩
  · intro j hj
    rw [Finset.mem_filter] at hj
    obtain ⟨-, hc⟩ := (key j).1 hj.2
    show ix2 (j 0) c = j
    rw [← hc]
    exact (eq_ix2 j).symm
  · intro t _
    rfl
  · intro j hj
    rw [Finset.mem_filter] at hj
    obtain ⟨-, hc⟩ := (key j).1 hj.2
    show upd j = upd (ix2 (j 0) c)
    rw [← hc]
    exact congrArg upd (eq_ix2 j)

end Cert.Lib.ScatterRows2

end
-- ==== Proof.LibGatherRows.lean ====
/-
  A gather of whole rows, and of single entries, at a column of start indices.

  Indexing a table x of N rows and C columns at an integer vector idx of length P (x[idx]) lowers to a gather whose
  start indices form a P-by-1 column: result entry (p, c) is x at (r, c), where the row r is the start index idx[p, 0]
  read as a signed integer and clamped into [0, N - 1]. Indexing a vector v of length N the same way gives, at p, the
  entry v[r] at the same clamped row r. Both reads are stated through one name for the clamped row, so that two
  gathers at one index column are seen to read the same row.
-/
import Idealize.ShloMosaic.Lib.ValueIdx

namespace Cert.LibGatherRows

open Idealize.ShloMosaic Idealize.ShloMosaic.ValueIdx

variable {α : Type}

/-- The row a start index names: the integer idx[p, 0] read signed and clamped into [0, N - 1]. -/
def clampRow {N P w : Nat} (hN : 0 < N) (idx : IVec ⟨2, ![P, 1]⟩ w) (p : Fin P) : Fin N :=
  ⟨min (idx (ix2 p (0 : Fin 1))).toInt.toNat (N - 1), by omega⟩

/-- The dimension numbers of x[idx] for a table x : [N, C] and a column of start indices [P, 1]: the row axis is
    collapsed and indexed, the column axis is carried whole. -/
abbrev rowsDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The dimension numbers of v[idx] for a vector v : [N] and a column of start indices [P, 1]. -/
abbrev entriesDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- The gather of rows read at (p, c): the table at (the clamped row of idx[p, 0], c). -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (p : Fin P) (c : Fin C) :
    Host.gather (rowsDims N C P wf) x idx (ix2 p c) = x (ix2 (clampRow hN idx p) c) := by
  unfold Host.gather
  congr 1
  funext a
  refine Fin.ext ?_
  match a with
  | ⟨0, _⟩ =>
    show (rowsDims N C P wf).start (ix2 p c) idx 0 + (rowsDims N C P wf).batchCoord (ix2 p c) 0
      + (rowsDims N C P wf).offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C P wf).startIndexMap from List.mem_singleton.mpr rfl)]
    have hsi : (rowsDims N C P wf).siIdx (ix2 p c) ⟨List.idxOf (0 : Fin 2) (rowsDims N C P wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N C P wf).start (ix2 p c) idx 1 + (rowsDims N C P wf).batchCoord (ix2 p c) 1
      + (rowsDims N C P wf).offCoord (ix2 p c) 1 = c.val
    rw [GatherDims.batchCoord_eq_zero _ _ _ List.not_mem_nil]
    have hs : (rowsDims N C P wf).start (ix2 p c) idx 1 = 0 := by
      unfold GatherDims.start
      rw [dif_neg (show (1 : Fin 2) ∉ ([0] : List (Fin 2)) by decide)]
    rw [hs]
    have hk : (1 : Fin 2) ∈ (rowsDims N C P wf).sKept :=
      (GatherDims.mem_sKept _ _).mpr ⟨(show (1 : Fin 2) ∉ ([0] : List (Fin 2)) by decide), List.not_mem_nil⟩
    unfold GatherDims.offCoord
    rw [dif_pos hk, Nat.zero_add]
    have hz : ∀ z : Fin (⟨2, ![P, C]⟩ : Shape).rank, z = 1 → (ix2 p c z).val = c.val := by
      intro z hz; subst hz; rfl
    exact hz _ (List.mem_singleton.mp (List.getElem_mem _))

/-- The gather of entries read at p: the vector at the clamped row of idx[p, 0]. -/
theorem gather_entries_apply {N P w : Nat} (hN : 0 < N)
    (wf : GatherDims.WF ⟨1, ![N]⟩ ⟨2, ![P, 1]⟩ ⟨1, ![P]⟩ [] [0] [] [0] [] 1 ![1])
    (v : (⟨1, ![N]⟩ : Shape).Idx → α) (idx : IVec ⟨2, ![P, 1]⟩ w) (p : Fin P) :
    Host.gather (entriesDims N P wf) v idx (ix1 p) = v (ix1 (clampRow hN idx p)) := by
  unfold Host.gather
  congr 1
  funext a
  obtain rfl : a = 0 := Subsingleton.elim _ _
  refine Fin.ext ?_
  show (entriesDims N P wf).start (ix1 p) idx 0 + (entriesDims N P wf).batchCoord (ix1 p) 0
    + (entriesDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N P wf).startIndexMap from List.mem_singleton.mpr rfl)]
  have hsi : (entriesDims N P wf).siIdx (ix1 p) ⟨List.idxOf (0 : Fin 1) (entriesDims N P wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.LibGatherRows
-- ==== Proof.LibGraphAgg.lean ====
/-
  The host operations of a graph convolution (message passing along edges), read at an entry, on the extended reals.
  Built on the row scatter-add, row gather, keep-dims and bias-row readings of the lemma files it imports.

  Rows of a table are gathered at the source node of each edge, scaled by the edge's normalisation weight and
  scatter-added into the row of the edge's destination node: entry (n, c) of the result is zero plus the sum over the
  edges whose destination is n of weight(e) · table(source(e), c). The self-loop term scales row n by the square of
  the node's inverse root degree, kept as a column; a bias vector is laid along every row; two matrices laid side by
  side are read in the left or the right one.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«157769_j1855425872360_2_alg».proof.Proof.LibScatterRows2
import proofs.«157769_j1855425872360_2_alg».proof.Proof.LibGatherRows
import proofs.«157769_j1855425872360_2_alg».proof.Proof.LibKeepdims
import proofs.«157769_j1855425872360_2_alg».proof.Proof.LibLreluRows
import proofs.«157769_j1855425872360_2_alg».proof.Proof.LibPlainContract

noncomputable section

namespace Cert.LibGraphAgg

open Idealize.ShloMosaic Idealize.ShloMosaic.ValueIdx

variable {N E C : ℕ}

/-- Rows gathered at each edge's source, scaled by the edge's weight and scatter-added at the edge's destination,
    read at entry (n, c). -/
theorem agg_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (T : FVec Ideal ⟨2, ![N, C]⟩ .f32) (nrm : FVec Ideal ⟨1, ![E]⟩ .f32) (src dst : IVec ⟨2, ![E, 1]⟩ 32)
    (n : Fin N) (c : Fin C) :
    Host.scatterAdd (F := Ideal) (Cert.Lib.ScatterRows2.rowsDims N E C wfS)
        (broadcastInDim ⟨2, ![N, C]⟩ ![] hz (constant (F := Ideal) ⟨0, ![]⟩ .f32 0x00000000#32)) dst
        (mulf (broadcastInDim ⟨2, ![E, C]⟩ ![0, 1] h2 (broadcastInDim ⟨2, ![E, 1]⟩ ![0] h1 nrm))
          (Host.gather (Cert.LibGatherRows.rowsDims N C E wfG) T src)) (ix2 n c)
      = (0 : EReal) + ∑ e : Fin E, if (dst (ix2 e 0)).toInt = (n.val : Int) then
            nrm (ix1 e) * T (ix2 (Cert.LibGatherRows.clampRow hN src e) c) else 0 := by
  rw [Cert.Lib.ScatterRows2.scatterAdd_rows_apply]
  congr 1
  · rw [broadcastInDim_scalar_apply]
    exact Ideal.ofBits_zero_f32
  · refine Finset.sum_congr rfl fun e _ => ?_
    congr 1
    show (broadcastInDim ⟨2, ![E, C]⟩ ![0, 1] h2 (broadcastInDim ⟨2, ![E, 1]⟩ ![0] h1 nrm) (ix2 e c))
        * (Host.gather (Cert.LibGatherRows.rowsDims N C E wfG) T src (ix2 e c)) = _
    rw [Cert.Lib.Keepdims.broadcastInDim_a1_ab_apply, Cert.Lib.Keepdims.broadcastInDim_a_a1_apply,
      Cert.LibGatherRows.gather_rows_apply hN]

/-- A per-node scalar kept as a column and spread along the rows, read at entry (n, c). -/
theorem spread_apply {α : Type} {a b : ℕ} (v : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h2 (broadcastInDim ⟨2, ![a, 1]⟩ ![0] h1 v) (ix2 p c) = v (ix1 p) := by
  rw [Cert.Lib.Keepdims.broadcastInDim_a1_ab_apply, Cert.Lib.Keepdims.broadcastInDim_a_a1_apply]

/-- Two [n, 64] matrices laid side by side, read in the left one. -/
theorem concat_left {α : Type} {n : ℕ} (x y : (⟨2, ![n, 64]⟩ : Shape).Idx → α)
    (h : Shape.Concatenates [(⟨2, ![n, 64]⟩ : Shape), ⟨2, ![n, 64]⟩] ⟨2, ![n, 128]⟩ 1) (p : Fin n) (k : Fin 64) :
    concatenate ⟨2, ![n, 128]⟩ 1 [⟨⟨2, ![n, 64]⟩, x⟩, ⟨⟨2, ![n, 64]⟩, y⟩] h (ix2 p (Fin.castAdd 64 k)) = x (ix2 p k) :=
  concatenate_pair_apply_left 1 x y h _ rfl (ix2 p k) (fun b => by
    match b with
    | ⟨0, _⟩ => rfl
    | ⟨1, _⟩ => rfl)

/-- Two [n, 64] matrices laid side by side, read in the right one. -/
theorem concat_right {α : Type} {n : ℕ} (x y : (⟨2, ![n, 64]⟩ : Shape).Idx → α)
    (h : Shape.Concatenates [(⟨2, ![n, 64]⟩ : Shape), ⟨2, ![n, 64]⟩] ⟨2, ![n, 128]⟩ 1) (p : Fin n) (k : Fin 64) :
    concatenate ⟨2, ![n, 128]⟩ 1 [⟨⟨2, ![n, 64]⟩, x⟩, ⟨⟨2, ![n, 64]⟩, y⟩] h (ix2 p (Fin.natAdd 64 k)) = y (ix2 p k) :=
  concatenate_pair_apply_right 1 x y h _ rfl rfl (ix2 p k) (fun b hb => by
    match b with
    | ⟨0, _⟩ => rfl
    | ⟨1, _⟩ => exact absurd rfl hb) (by
    show k.val + 64 = 64 + k.val
    omega)

end Cert.LibGraphAgg

end
-- ==== Proof.KValue.lean ====
/-
  The kernel's result array as one function of the arrays the launch finds, entry by entry.

  The launch runs over 20 blocks of 5000 nodes. Block t of every row-blocked operand is rows 5000·t … 5000·t + 4999 of
  its array, the weight and bias operands are staged whole at every block, and the two halves of a gate's weight matrix
  are its rows 0 … 63 and 64 … 127. So what block t writes back is block t of one function of the whole arrays: at node n
  and column j, the gated cell of the three rows (aggregated + squared inverse root degree · own) · projection + bias
  and of the node's hidden row. The 20 blocks cover the result array.
-/
import proofs.«157769_j1855425872360_2_alg».proof.Proof.Gen.KernelIdeal.Value
import proofs.«157769_j1855425872360_2_alg».proof.Proof.KPay
import proofs.«157769_j1855425872360_2_alg».proof.Proof.LibGraphAgg

noncomputable section

namespace Cert.KernelIdeal.KValue

open Cert.KernelIdeal Cert.KernelIdeal.Gen Idealize.ShloMosaic Idealize.ShloMosaic.TcCoe Idealize.SL.Sem
open Idealize.ShloMosaic.ValueIdx Cert.Spec
open Idealize.ShloMosaic.Pipeline (Dat)

theorem hz : (![0, 0] : Fin 2 → Nat) = fun _ => 0 := funext fun a => by fin_cases a <;> rfl

/-- Row p of block t is row 5000·t + p of the array. -/
def row (t : Fin cfg0.N) (p : Fin 5000) : Fin 100000 :=
  ⟨5000 * t.val + p.val, by have ht : t.val < 20 := t.isLt; have hp := p.isLt; omega⟩

/-- A convolved row of node n from whole arrays: (aggregated + squared inverse root degree · own) · projection + bias. -/
def rowV (A X : S100000x128.Idx → EReal) (D : S100000x1.Idx → EReal) (W : S128x64.Idx → EReal)
    (b : S1x64.Idx → EReal) (n : Fin 100000) (j : Fin 64) : EReal :=
  (∑ k : Fin 128, (A (ix2 n k) + D (ix2 n (0 : Fin 1)) * X (ix2 n k)) * W (ix2 k j)) + b (ix2 (0 : Fin 1) j)

/-- The result at node n and column j from whole arrays. -/
def GV (A X : S100000x128.Idx → EReal) (D : S100000x1.Idx → EReal) (H : S100000x64.Idx → EReal)
    (Wz Wr Wh : S128x64.Idx → EReal) (bz br bh : S1x64.Idx → EReal) (Lz Lr Lh : S128x64.Idx → EReal)
    (lz lr lh : S1x64.Idx → EReal) (n : Fin 100000) (j : Fin 64) : EReal :=
  cell (rowV A X D Wz bz n) (rowV A X D Wr br n) (rowV A X D Wh bh n) (fun k => H (ix2 n k))
    (fun k q => Lz (ix2 (lo k) q)) (fun k q => Lz (ix2 (hi k) q))
    (fun k q => Lr (ix2 (lo k) q)) (fun k q => Lr (ix2 (hi k) q))
    (fun k q => Lh (ix2 (lo k) q)) (fun k q => Lh (ix2 (hi k) q))
    (fun q => lz (ix2 (0 : Fin 1) q)) (fun q => lr (ix2 (0 : Fin 1) q)) (fun q => lh (ix2 (0 : Fin 1) q)) j

/-- The printed index maps, decided over the 20 points: the row-blocked windows sit at block (t, 0), the others at
    block (0, 0). -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_16.index t (0 : Fin 2) = t.val ∧ win0_16.index t (1 : Fin 2) = 0 :=
  (by decide +kernel : ∀ t : Fin grid0.N, _)

theorem idx_fixed : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-! ## A block's entries are the array's -/

theorem read0 (A : S100000x128.Idx → EReal) (t : Fin cfg0.N) (p : Fin 5000) (k : Fin 128) :
    View.read (Elt Ideal) ((View.whole main_v38).slice ((win0 0).rect t)) A (ix2 p k) = A (ix2 (row t p) k) := by
  obtain ⟨e0, e1, -⟩ := idx_moving t
  show A (((cfg0.win 0).blk t).view.emb (ix2 p k)) = _
  refine congrArg A (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem read1 (A : S100000x128.Idx → EReal) (t : Fin cfg0.N) (p : Fin 5000) (k : Fin 128) :
    View.read (Elt Ideal) ((View.whole main_arg0).slice ((win0 1).rect t)) A (ix2 p k) = A (ix2 (row t p) k) := by
  obtain ⟨-, -, e0, e1, -⟩ := idx_moving t
  show A (((cfg0.win 1).blk t).view.emb (ix2 p k)) = _
  refine congrArg A (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

theorem read2 (A : S100000x1.Idx → EReal) (t : Fin cfg0.N) (p : Fin 5000) (k : Fin 1) :
    View.read (Elt Ideal) ((View.whole main_v40).slice ((win0 2).rect t)) A (ix2 p k) = A (ix2 (row t p) k) := by
  obtain ⟨-, -, -, -, e0, e1, -⟩ := idx_moving t
  show A (((cfg0.win 2).blk t).view.emb (ix2 p k)) = _
  refine congrArg A (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 1 + 1 * k.val = k.val; rw [e1]; omega

theorem read3 (A : S100000x64.Idx → EReal) (t : Fin cfg0.N) (p : Fin 5000) (k : Fin 64) :
    View.read (Elt Ideal) ((View.whole main_arg3).slice ((win0 3).rect t)) A (ix2 p k) = A (ix2 (row t p) k) := by
  obtain ⟨-, -, -, -, -, -, e0, e1, -⟩ := idx_moving t
  show A (((cfg0.win 3).blk t).view.emb (ix2 p k)) = _
  refine congrArg A (funext fun a => Fin.ext ?_)
  match a with
  | ⟨0, _⟩ => show win0_3.index t (0 : Fin 2) * 5000 + 1 * p.val = 5000 * t.val + p.val; rw [e0]; omega
  | ⟨1, _⟩ => show win0_3.index t (1 : Fin 2) * 64 + 1 * k.val = k.val; rw [e1]; omega

theorem emb16 (t : Fin cfg0.N) (p : Fin 5000) (q : Fin 64) :
    ((cfg0.win 16).blk t).view.emb (ix2 p q) = ix2 (row t p) q := by
  obtain ⟨-, -, -, -, -, -, -, -, e0, e1⟩ := idx_moving t
  refine funext fun a => Fin.ext ?_
  match a with
  | ⟨0, _⟩ => show win0_16.index t (0 : Fin 2) * 5000 + 1 * p.val = 5000 * t.val + p.val; rw [e0]; omega
  | ⟨1, _⟩ => show win0_16.index t (1 : Fin 2) * 64 + 1 * q.val = q.val; rw [e1]; omega

/-! ## The operands staged whole at every block -/

theorem read4 (A : S128x64.Idx → EReal) (t : Fin cfg0.N) (k : Fin 128) (j : Fin 64) :
    View.read (Elt Ideal) ((View.whole main_arg4).slice ((win0 4).rect t)) A (ix2 k j) = A (ix2 k j) := by
  obtain ⟨e0, e1⟩ := (idx_fixed t).1
  show A (((cfg0.win 4).blk t).view.emb (ix2 k j)) = _
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 64 + 1 * j.val = j.val; rw [e1]; omega

theorem read5 (A : S1x64.Idx → EReal) (t : Fin cfg0.N) (k : Fin 1) (j : Fin 64) :
    View.read (Elt Ideal) ((View.whole main_v41).slice ((win0 5).rect t)) A (ix2 k j) = A (ix2 k j) := by
  obtain ⟨e0, e1⟩ := (idx_fixed t).2.1
  show A (((cfg0.win 5).blk t).view.emb (ix2 k j)) = _
  refine congrArg A (funext fun a => Fin.ext ?_)
  match a with
  | ⟨0, _⟩ => show win0_5.index t (0 : Fin 2) * 1 + 1 * k.val = k.val; rw [e0]; omega
  | ⟨1, _⟩ => show win0_5.index t (1 : Fin 2) * 64 + 1 * j.val = j.val; rw [e1]; omega

theorem ld6lo (A : S128x64.Idx → EReal) (t : Fin cfg0.N) (k q : Fin 64) :
    View.ld (View.read (Elt Ideal) ((View.whole main_arg6).slice ((win0 6).rect t)) A) r0_5 (ix2 k q) = A (ix2 (lo k) q) := by
  obtain ⟨e0, e1⟩ := (idx_fixed t).2.2.1
  show A (((cfg0.win 6).blk t).view.emb (r0_5.emb (ix2 k q))) = _
  refine congrArg A (funext fun a => Fin.ext ?_)
  match a with
  | ⟨0, _⟩ => show win0_6.index t (0 : Fin 2) * 128 + 1 * (0 + 1 * k.val) = k.val; rw [e0]; omega
  | ⟨1, _⟩ => show win0_6.index t (1 : Fin 2) * 64 + 1 * (0 + 1 * q.val) = q.val; rw [e1]; omega

theorem ld6hi (A : S128x64.Idx → EReal) (t : Fin cfg0.N) (k q : Fin 64) :
    View.ld (View.read (Elt Ideal) ((View.whole main_arg6).slice ((win0 6).rect t)) A) r0_6 (ix2 k q) = A (ix2 (hi k) q) := by
  obtain ⟨e0, e1⟩ := (idx_fixed t).2.2.1
  show A (((cfg0.win 6).blk t).view.emb (r0_6.emb (ix2 k q))) = _
  refine congrArg A (funext fun a => Fin.ext ?_)
  match a with
  | ⟨0, _⟩ => show win0_6.index t (0 : Fin 2) * 128 + 1 * (64 + 1 * k.val) = 64 + k.val; rw [e0]; omega
  | ⟨1, _⟩ => show win0_6.index t (1 : Fin 2) * 64 + 1 * (0 + 1 * q.val) = q.val; rw [e1]; omega

theorem read7 (A : S1x64.Idx → EReal) (t : Fin cfg0.N) (k : Fin 1) (j : Fin 64) :
    View.read (Elt Ideal) ((View.whole main_v42).slice ((win0 7).rect t)) A (ix2 k j) = A (ix2 k j) := by
  obtain ⟨e0, e1⟩ := (idx_fixed t).2.2.2.1
  show A (((cfg0.win 7).blk t).view.emb (ix2 k j)) = _
  refine congrArg A (funext fun a => Fin.ext ?_)
  match a with
  | ⟨0, _⟩ => show win0_7.index t (0 : Fin 2) * 1 + 1 * k.val = k.val; rw [e0]; omega
  | ⟨1, _⟩ => show win0_7.index t (1 : Fin 2) * 64 + 1 * j.val = j.val; rw [e1]; omega

theorem read8 (A : S128x64.Idx → EReal) (t : Fin cfg0.N) (k : Fin 128) (j : Fin 64) :
    View.read (Elt Ideal) ((View.whole main_arg8).slice ((win0 8).rect t)) A (ix2 k j) = A (ix2 k j) := by
  obtain ⟨e0, e1⟩ := (idx_fixed t).2.2.2.2.1
  show A (((cfg0.win 8).blk t).view.emb (ix2 k j)) = _
  refine congrArg A (funext fun a => Fin.ext ?_)
  match a with
  | ⟨0, _⟩ => show win0_8.index t (0 : Fin 2) * 128 + 1 * k.val = k.val; rw [e0]; omega
  | ⟨1, _⟩ => show win0_8.index t (1 : Fin 2) * 64 + 1 * j.val = j.val; rw [e1]; omega

theorem read9 (A : S1x64.Idx → EReal) (t : Fin cfg0.N) (k : Fin 1) (j : Fin 64) :
    View.read (Elt Ideal) ((View.whole main_v43).slice ((win0 9).rect t)) A (ix2 k j) = A (ix2 k j) := by
  obtain ⟨e0, e1⟩ := (idx_fixed t).2.2.2.2.2.1
  show A (((cfg0.win 9).blk t).view.emb (ix2 k j)) = _
  refine congrArg A (funext fun a => Fin.ext ?_)
  match a with
  | ⟨0, _⟩ => show win0_9.index t (0 : Fin 2) * 1 + 1 * k.val = k.val; rw [e0]; omega
  | ⟨1, _⟩ => show win0_9.index t (1 : Fin 2) * 64 + 1 * j.val = j.val; rw [e1]; omega

theorem ld10lo (A : S128x64.Idx → EReal) (t : Fin cfg0.N) (k q : Fin 64) :
    View.ld (View.read (Elt Ideal) ((View.whole main_arg10).slice ((win0 10).rect t)) A) r0_5 (ix2 k q) = A (ix2 (lo k) q) := by
  obtain ⟨e0, e1⟩ := (idx_fixed t).2.2.2.2.2.2.1
  show A (((cfg0.win 10).blk t).view.emb (r0_5.emb (ix2 k q))) = _
  refine congrArg A (funext fun a => Fin.ext ?_)
  match a with
  | ⟨0, _⟩ => show win0_10.index t (0 : Fin 2) * 128 + 1 * (0 + 1 * k.val) = k.val; rw [e0]; omega
  | ⟨1, _⟩ => show win0_10.index t (1 : Fin 2) * 64 + 1 * (0 + 1 * q.val) = q.val; rw [e1]; omega

theorem ld10hi (A : S128x64.Idx → EReal) (t : Fin cfg0.N) (k q : Fin 64) :
    View.ld (View.read (Elt Ideal) ((View.whole main_arg10).slice ((win0 10).rect t)) A) r0_6 (ix2 k q) = A (ix2 (hi k) q) := by
  obtain ⟨e0, e1⟩ := (idx_fixed t).2.2.2.2.2.2.1
  show A (((cfg0.win 10).blk t).view.emb (r0_6.emb (ix2 k q))) = _
  refine congrArg A (funext fun a => Fin.ext ?_)
  match a with
  | ⟨0, _⟩ => show win0_10.index t (0 : Fin 2) * 128 + 1 * (64 + 1 * k.val) = 64 + k.val; rw [e0]; omega
  | ⟨1, _⟩ => show win0_10.index t (1 : Fin 2) * 64 + 1 * (0 + 1 * q.val) = q.val; rw [e1]; omega

theorem read11 (A : S1x64.Idx → EReal) (t : Fin cfg0.N) (k : Fin 1) (j : Fin 64) :
    View.read (Elt Ideal) ((View.whole main_v44).slice ((win0 11).rect t)) A (ix2 k j) = A (ix2 k j) := by
  obtain ⟨e0, e1⟩ := (idx_fixed t).2.2.2.2.2.2.2.1
  show A (((cfg0.win 11).blk t).view.emb (ix2 k j)) = _
  refine congrArg A (funext fun a => Fin.ext ?_)
  match a with
  | ⟨0, _⟩ => show win0_11.index t (0 : Fin 2) * 1 + 1 * k.val = k.val; rw [e0]; omega
  | ⟨1, _⟩ => show win0_11.index t (1 : Fin 2) * 64 + 1 * j.val = j.val; rw [e1]; omega

theorem read12 (A : S128x64.Idx → EReal) (t : Fin cfg0.N) (k : Fin 128) (j : Fin 64) :
    View.read (Elt Ideal) ((View.whole main_arg12).slice ((win0 12).rect t)) A (ix2 k j) = A (ix2 k j) := by
  obtain ⟨e0, e1⟩ := (idx_fixed t).2.2.2.2.2.2.2.2.1
  show A (((cfg0.win 12).blk t).view.emb (ix2 k j)) = _
  refine congrArg A (funext fun a => Fin.ext ?_)
  match a with
  | ⟨0, _⟩ => show win0_12.index t (0 : Fin 2) * 128 + 1 * k.val = k.val; rw [e0]; omega
  | ⟨1, _⟩ => show win0_12.index t (1 : Fin 2) * 64 + 1 * j.val = j.val; rw [e1]; omega

theorem read13 (A : S1x64.Idx → EReal) (t : Fin cfg0.N) (k : Fin 1) (j : Fin 64) :
    View.read (Elt Ideal) ((View.whole main_v45).slice ((win0 13).rect t)) A (ix2 k j) = A (ix2 k j) := by
  obtain ⟨e0, e1⟩ := (idx_fixed t).2.2.2.2.2.2.2.2.2.1
  show A (((cfg0.win 13).blk t).view.emb (ix2 k j)) = _
  refine congrArg A (funext fun a => Fin.ext ?_)
  match a with
  | ⟨0, _⟩ => show win0_13.index t (0 : Fin 2) * 1 + 1 * k.val = k.val; rw [e0]; omega
  | ⟨1, _⟩ => show win0_13.index t (1 : Fin 2) * 64 + 1 * j.val = j.val; rw [e1]; omega

theorem ld14lo (A : S128x64.Idx → EReal) (t : Fin cfg0.N) (k q : Fin 64) :
    View.ld (View.read (Elt Ideal) ((View.whole main_arg14).slice ((win0 14).rect t)) A) r0_5 (ix2 k q) = A (ix2 (lo k) q) := by
  obtain ⟨e0, e1⟩ := (idx_fixed t).2.2.2.2.2.2.2.2.2.2.1
  show A (((cfg0.win 14).blk t).view.emb (r0_5.emb (ix2 k q))) = _
  refine congrArg A (funext fun a => Fin.ext ?_)
  match a with
  | ⟨0, _⟩ => show win0_14.index t (0 : Fin 2) * 128 + 1 * (0 + 1 * k.val) = k.val; rw [e0]; omega
  | ⟨1, _⟩ => show win0_14.index t (1 : Fin 2) * 64 + 1 * (0 + 1 * q.val) = q.val; rw [e1]; omega

theorem ld14hi (A : S128x64.Idx → EReal) (t : Fin cfg0.N) (k q : Fin 64) :
    View.ld (View.read (Elt Ideal) ((View.whole main_arg14).slice ((win0 14).rect t)) A) r0_6 (ix2 k q) = A (ix2 (hi k) q) := by
  obtain ⟨e0, e1⟩ := (idx_fixed t).2.2.2.2.2.2.2.2.2.2.1
  show A (((cfg0.win 14).blk t).view.emb (r0_6.emb (ix2 k q))) = _
  refine congrArg A (funext fun a => Fin.ext ?_)
  match a with
  | ⟨0, _⟩ => show win0_14.index t (0 : Fin 2) * 128 + 1 * (64 + 1 * k.val) = 64 + k.val; rw [e0]; omega
  | ⟨1, _⟩ => show win0_14.index t (1 : Fin 2) * 64 + 1 * (0 + 1 * q.val) = q.val; rw [e1]; omega

theorem read15 (A : S1x64.Idx → EReal) (t : Fin cfg0.N) (k : Fin 1) (j : Fin 64) :
    View.read (Elt Ideal) ((View.whole main_v46).slice ((win0 15).rect t)) A (ix2 k j) = A (ix2 k j) := by
  obtain ⟨e0, e1⟩ := (idx_fixed t).2.2.2.2.2.2.2.2.2.2.2
  show A (((cfg0.win 15).blk t).view.emb (ix2 k j)) = _
  refine congrArg A (funext fun a => Fin.ext ?_)
  match a with
  | ⟨0, _⟩ => show win0_15.index t (0 : Fin 2) * 1 + 1 * k.val = k.val; rw [e0]; omega
  | ⟨1, _⟩ => show win0_15.index t (1 : Fin 2) * 64 + 1 * j.val = j.val; rw [e1]; omega

/-! ## What a block writes back, and the whole array -/

/-- What a block of the body's result is, for any arrays the windows are cut from: block t of `GV` of those arrays. -/
theorem block_eq (A0 A1 : S100000x128.Idx → EReal) (A2 : S100000x1.Idx → EReal) (A3 : S100000x64.Idx → EReal)
    (A4 : S128x64.Idx → EReal) (A5 : S1x64.Idx → EReal) (A6 : S128x64.Idx → EReal) (A7 : S1x64.Idx → EReal)
    (A8 : S128x64.Idx → EReal) (A9 : S1x64.Idx → EReal) (A10 : S128x64.Idx → EReal) (A11 : S1x64.Idx → EReal)
    (A12 : S128x64.Idx → EReal) (A13 : S1x64.Idx → EReal) (A14 : S128x64.Idx → EReal) (A15 : S1x64.Idx → EReal)
    (t : Fin cfg0.N) (p : Fin 5000) (q : Fin 64) :
    out0_16 (((cfg0.win 0).blk t).view.read (Elt Ideal) A0)
      (((cfg0.win 1).blk t).view.read (Elt Ideal) A1)
      (((cfg0.win 2).blk t).view.read (Elt Ideal) A2)
      (((cfg0.win 3).blk t).view.read (Elt Ideal) A3)
      (((cfg0.win 4).blk t).view.read (Elt Ideal) A4)
      (((cfg0.win 5).blk t).view.read (Elt Ideal) A5)
      (((cfg0.win 6).blk t).view.read (Elt Ideal) A6)
      (((cfg0.win 7).blk t).view.read (Elt Ideal) A7)
      (((cfg0.win 8).blk t).view.read (Elt Ideal) A8)
      (((cfg0.win 9).blk t).view.read (Elt Ideal) A9)
      (((cfg0.win 10).blk t).view.read (Elt Ideal) A10)
      (((cfg0.win 11).blk t).view.read (Elt Ideal) A11)
      (((cfg0.win 12).blk t).view.read (Elt Ideal) A12)
      (((cfg0.win 13).blk t).view.read (Elt Ideal) A13)
      (((cfg0.win 14).blk t).view.read (Elt Ideal) A14)
      (((cfg0.win 15).blk t).view.read (Elt Ideal) A15) (ix2 p q)
      = GV A0 A1 A2 A3 A4 A8 A12 A5 A9 A13 A6 A10 A14 A7 A11 A15 (row t p) q := by
  unfold out0_16
  rw [View.canon_unit_zero hz]
  simp only [View.ld_unit_zero (S := S5000x128) hz, View.ld_unit_zero (S := S5000x1) hz,
    View.ld_unit_zero (S := S5000x64) hz, View.ld_unit_zero (S := S128x64) hz, View.ld_unit_zero (S := S1x64) hz]
  refine (Cert.KernelIdeal.Pay.pay1_apply (((cfg0.win 3).blk t).view.read (Elt Ideal) A3) (((cfg0.win 0).blk t).view.read (Elt Ideal) A0) (((cfg0.win 1).blk t).view.read (Elt Ideal) A1) (((cfg0.win 2).blk t).view.read (Elt Ideal) A2)
    (((cfg0.win 4).blk t).view.read (Elt Ideal) A4) (((cfg0.win 8).blk t).view.read (Elt Ideal) A8) (((cfg0.win 12).blk t).view.read (Elt Ideal) A12) (((cfg0.win 5).blk t).view.read (Elt Ideal) A5) (((cfg0.win 9).blk t).view.read (Elt Ideal) A9) (((cfg0.win 13).blk t).view.read (Elt Ideal) A13)
    (View.ld (((cfg0.win 6).blk t).view.read (Elt Ideal) A6) r0_5) (View.ld (((cfg0.win 6).blk t).view.read (Elt Ideal) A6) r0_6) (View.ld (((cfg0.win 10).blk t).view.read (Elt Ideal) A10) r0_5)
    (View.ld (((cfg0.win 10).blk t).view.read (Elt Ideal) A10) r0_6) (View.ld (((cfg0.win 14).blk t).view.read (Elt Ideal) A14) r0_5) (View.ld (((cfg0.win 14).blk t).view.read (Elt Ideal) A14) r0_6)
    (((cfg0.win 7).blk t).view.read (Elt Ideal) A7) (((cfg0.win 11).blk t).view.read (Elt Ideal) A11) (((cfg0.win 15).blk t).view.read (Elt Ideal) A15) p q).trans ?_
  unfold GV rowV Cert.KernelIdeal.Pay.convRow
  simp only [read0, read1, read2, read3, read4, read5, read7, read8, read9, read11, read12, read13, read15,
    ld6lo, ld6hi, ld10lo, ld10hi, ld14lo, ld14hi]

/-- Every node's row lies in the block of its 5000-node group. -/
theorem cover (i : S100000x64.Idx) :
    ∃ t : Fin cfg0.N, (cfg0.win 16).flush t = true ∧ i ∈ ((cfg0.win 16).blk t).view.set := by
  have hi0 : (i 0).val < 100000 := (i 0).isLt
  have hi1 : (i 1).val < 64 := (i 1).isLt
  let t : Fin cfg0.N := ⟨(i 0).val / 5000, by show _ < 20; omega⟩
  obtain ⟨-, -, -, -, -, -, -, -, e0, e1⟩ := idx_moving t
  refine ⟨t, flush0_16 t, ?_⟩
  show i ∈ ((View.whole main_v47).slice (win0_16.rect t)).set
  rw [View.set_slice_whole, Rect.mem_set_unit]
  intro a
  match a with
  | ⟨0, _⟩ =>
    show win0_16.index t (0 : Fin 2) * 5000 ≤ (i 0).val ∧ (i 0).val < win0_16.index t (0 : Fin 2) * 5000 + 5000
    rw [e0]
    show (i 0).val / 5000 * 5000 ≤ (i 0).val ∧ (i 0).val < (i 0).val / 5000 * 5000 + 5000
    omega
  | ⟨1, _⟩ =>
    show win0_16.index t (1 : Fin 2) * 64 ≤ (i 1).val ∧ (i 1).val < win0_16.index t (1 : Fin 2) * 64 + 64
    rw [e1]
    omega

/-- The same through the window's cut, as a block of the whole-array function. -/
theorem flushed_gen (A0 A1 : S100000x128.Idx → EReal) (A2 : S100000x1.Idx → EReal) (A3 : S100000x64.Idx → EReal)
    (A4 : S128x64.Idx → EReal) (A5 : S1x64.Idx → EReal) (A6 : S128x64.Idx → EReal) (A7 : S1x64.Idx → EReal)
    (A8 : S128x64.Idx → EReal) (A9 : S1x64.Idx → EReal) (A10 : S128x64.Idx → EReal) (A11 : S1x64.Idx → EReal)
    (A12 : S128x64.Idx → EReal) (A13 : S1x64.Idx → EReal) (A14 : S128x64.Idx → EReal) (A15 : S1x64.Idx → EReal)
    (t : Fin cfg0.N) :
    (cfg0.win 16).cut (grid0.coords t) (out0_16 (((cfg0.win 0).blk t).view.read (Elt Ideal) A0)
      (((cfg0.win 1).blk t).view.read (Elt Ideal) A1)
      (((cfg0.win 2).blk t).view.read (Elt Ideal) A2)
      (((cfg0.win 3).blk t).view.read (Elt Ideal) A3)
      (((cfg0.win 4).blk t).view.read (Elt Ideal) A4)
      (((cfg0.win 5).blk t).view.read (Elt Ideal) A5)
      (((cfg0.win 6).blk t).view.read (Elt Ideal) A6)
      (((cfg0.win 7).blk t).view.read (Elt Ideal) A7)
      (((cfg0.win 8).blk t).view.read (Elt Ideal) A8)
      (((cfg0.win 9).blk t).view.read (Elt Ideal) A9)
      (((cfg0.win 10).blk t).view.read (Elt Ideal) A10)
      (((cfg0.win 11).blk t).view.read (Elt Ideal) A11)
      (((cfg0.win 12).blk t).view.read (Elt Ideal) A12)
      (((cfg0.win 13).blk t).view.read (Elt Ideal) A13)
      (((cfg0.win 14).blk t).view.read (Elt Ideal) A14)
      (((cfg0.win 15).blk t).view.read (Elt Ideal) A15))
      = ((cfg0.win 16).blk t).view.read (Elt Ideal)
          (fun i => GV A0 A1 A2 A3 A4 A8 A12 A5 A9 A13 A6 A10 A14 A7 A11 A15 (i 0) (i 1)) := by
  funext y
  obtain ⟨p, q, rfl⟩ : ∃ (p : Fin 5000) (q : Fin 64), y = ix2 p q := ⟨y 0, y 1, eq_ix2 y⟩
  show out0_16 (((cfg0.win 0).blk t).view.read (Elt Ideal) A0)
      (((cfg0.win 1).blk t).view.read (Elt Ideal) A1)
      (((cfg0.win 2).blk t).view.read (Elt Ideal) A2)
      (((cfg0.win 3).blk t).view.read (Elt Ideal) A3)
      (((cfg0.win 4).blk t).view.read (Elt Ideal) A4)
      (((cfg0.win 5).blk t).view.read (Elt Ideal) A5)
      (((cfg0.win 6).blk t).view.read (Elt Ideal) A6)
      (((cfg0.win 7).blk t).view.read (Elt Ideal) A7)
      (((cfg0.win 8).blk t).view.read (Elt Ideal) A8)
      (((cfg0.win 9).blk t).view.read (Elt Ideal) A9)
      (((cfg0.win 10).blk t).view.read (Elt Ideal) A10)
      (((cfg0.win 11).blk t).view.read (Elt Ideal) A11)
      (((cfg0.win 12).blk t).view.read (Elt Ideal) A12)
      (((cfg0.win 13).blk t).view.read (Elt Ideal) A13)
      (((cfg0.win 14).blk t).view.read (Elt Ideal) A14)
      (((cfg0.win 15).blk t).view.read (Elt Ideal) A15) (ix2 p q)
    = (fun i : S100000x64.Idx => GV A0 A1 A2 A3 A4 A8 A12 A5 A9 A13 A6 A10 A14 A7 A11 A15 (i 0) (i 1))
        (((cfg0.win 16).blk t).view.emb (ix2 p q))
  rw [emb16 t p q]
  exact block_eq A0 A1 A2 A3 A4 A5 A6 A7 A8 A9 A10 A11 A12 A13 A14 A15 t p q

variable (m : (ℓ : Loc nD τ sig) → Buf (Elt Ideal) ℓ) (ρ : Dev nD → PrngReg)

/-- The result array's function of the arrays the launch finds. -/
def Gk (c : Dev nD) : S100000x64.Idx → EReal := fun i =>
  GV (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 8))
    (V m c (Pipeline.arrRef spec0 12)) (V m c (Pipeline.arrRef spec0 5)) (V m c (Pipeline.arrRef spec0 9))
    (V m c (Pipeline.arrRef spec0 13)) (V m c (Pipeline.arrRef spec0 6)) (V m c (Pipeline.arrRef spec0 10))
    (V m c (Pipeline.arrRef spec0 14)) (V m c (Pipeline.arrRef spec0 7)) (V m c (Pipeline.arrRef spec0 11))
    (V m c (Pipeline.arrRef spec0 15)) (i 0) (i 1)

/-- Block t writes back block t of that function. -/
theorem flushed_eq (c : Dev nD) (t : Fin cfg0.N) :
    (dats m 0 c).flushed 16 t = ((cfg0.win 16).blk t).view.read (Elt Ideal) (Gk m c) :=
  (Cert.KernelIdeal.Value.flushed16 m c t).trans
    (flushed_gen (V m c (Pipeline.arrRef spec0 0)) (V m c (Pipeline.arrRef spec0 1)) (V m c (Pipeline.arrRef spec0 2))
      (V m c (Pipeline.arrRef spec0 3)) (V m c (Pipeline.arrRef spec0 4)) (V m c (Pipeline.arrRef spec0 5))
      (V m c (Pipeline.arrRef spec0 6)) (V m c (Pipeline.arrRef spec0 7)) (V m c (Pipeline.arrRef spec0 8))
      (V m c (Pipeline.arrRef spec0 9)) (V m c (Pipeline.arrRef spec0 10)) (V m c (Pipeline.arrRef spec0 11))
      (V m c (Pipeline.arrRef spec0 12)) (V m c (Pipeline.arrRef spec0 13)) (V m c (Pipeline.arrRef spec0 14))
      (V m c (Pipeline.arrRef spec0 15)) t)

/-- The result array after the launch is that function of the arrays the launch finds. -/
theorem final (c : Dev nD) : (dats m 0 c).arrAt 16 cfg0.N = Gk m c :=
  (dats m 0 c).arrAt_eq_of_cover 16 (Gk m c) (fun t _ => flushed_eq m c t) cover

end Cert.KernelIdeal.KValue

end
-- ==== Proof.KHost.lean ====
/-
  The arrays the kernel's launch finds: what the host computes before it.

  Before the launch the host computes every node's inverse root degree, every edge's normalisation weight, the
  aggregated features (the source node's feature row scaled by the edge's weight, scatter-added at the destination
  node), the squared inverse root degree as a column, and lays each bias vector out as a one-row matrix.
-/
import proofs.«157769_j1855425872360_2_alg».proof.Proof.Gen.KernelIdeal.Frame
import proofs.«157769_j1855425872360_2_alg».proof.Proof.LibGraphAgg
import Idealize.ShloMosaic.Lib.StableHlo.Run

noncomputable section

namespace Cert.KernelIdeal.KHost

open Cert.KernelIdeal Cert.KernelIdeal.Gen Idealize.ShloMosaic Idealize.ShloMosaic.TcCoe
open Idealize.SL.Sem Idealize.ShloMosaic.ValueIdx Idealize.ShloMosaic.StableHlo

/-- The source node of every edge, and the destination node: the two rows of the edge list. -/
def srcV (ei : IVec S2x1600000 32) : IVec S1600000 32 :=
  shapeCast S1600000 (extractStridedSlice S1x1600000 ![0, 0] ei slices_S2x1600000_S1x1600000_0_0)
    shapeCasts_S1x1600000_S1600000

def dstV (ei : IVec S2x1600000 32) : IVec S1600000 32 :=
  shapeCast S1600000 (extractStridedSlice S1x1600000 ![1, 0] ei slices_S2x1600000_S1x1600000_1_0)
    shapeCasts_S1x1600000_S1600000

/-- Node numbers as a column of gather indices, a negative number counted from the end. -/
def wrap (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The destination nodes as a column of scatter indices. -/
def dstCol (ei : IVec S2x1600000 32) : IVec S1600000x1 32 :=
  broadcastInDim S1600000x1 ![0] bcast_S1600000_S1600000x1_0 (dstV ei)

/-- A node's degree: the weights of its incoming edges, plus one for the self loop. -/
def deg (ei : IVec S2x1600000 32) (ew : FVec Ideal S1600000 .f32) : FVec Ideal S100000 .f32 :=
  addf (Host.scatterAdd scatter_S100000_S1600000x1_S1600000_n_0_0_1
      (broadcastInDim S100000 ![] bcast_S_S100000 (constant S_ .f32 0x00000000#32)) (dstCol ei) ew)
    (broadcastInDim S100000 ![] bcast_S_S100000 (constant S_ .f32 0x3F800000#32))

/-- The inverse root degree. -/
def dinv (ei : IVec S2x1600000 32) (ew : FVec Ideal S1600000 .f32) : FVec Ideal S100000 .f32 :=
  Host.rsqrt (deg ei ew)

/-- An edge's normalisation weight: inverse root degree of its source · its weight · inverse root degree of its
    destination. -/
def nrm (ei : IVec S2x1600000 32) (ew : FVec Ideal S1600000 .f32) : FVec Ideal S1600000 .f32 :=
  mulf (mulf (Host.gather gather_S100000_S1600000x1_S1600000_n_0_n_n_0_1_1 (dinv ei ew) (wrap (srcV ei))) ew)
    (Host.gather gather_S100000_S1600000x1_S1600000_n_0_n_n_0_1_1 (dinv ei ew) (wrap (dstV ei)))

/-- The aggregated features. -/
def aggX (X : FVec Ideal S100000x128 .f32) (ei : IVec S2x1600000 32) (ew : FVec Ideal S1600000 .f32) :
    FVec Ideal S100000x128 .f32 :=
  Host.scatterAdd scatter_S100000x128_S1600000x1_S1600000x128_1_0_0_1
    (broadcastInDim S100000x128 ![] bcast_S_S100000x128 (constant S_ .f32 0x00000000#32)) (dstCol ei)
    (mulf (broadcastInDim S1600000x128 ![0, 1] bcast_S1600000x1_S1600000x128_0_1
        (broadcastInDim S1600000x1 ![0] bcast_S1600000_S1600000x1_0 (nrm ei ew)))
      (Host.gather gather_S100000x128_S1600000x1_S1600000x128_1_0_n_n_0_1_1128 X (wrap (srcV ei))))

/-- The squared inverse root degree as a column. -/
def d2col (ei : IVec S2x1600000 32) (ew : FVec Ideal S1600000 .f32) : FVec Ideal S100000x1 .f32 :=
  shapeCast S100000x1 (mulf (dinv ei ew) (dinv ei ew)) shapeCasts_S100000_S100000x1

/-- A bias vector as a one-row matrix. -/
def biasRow (b : FVec Ideal S64 .f32) : FVec Ideal S1x64 .f32 := shapeCast S1x64 b shapeCasts_S64_S1x64

/-- The aggregated features at (n, k): zero plus, over the edges into node n, the edge's weight times the source node's
    feature k. -/
theorem aggX_apply (X : FVec Ideal S100000x128 .f32) (ei : IVec S2x1600000 32) (ew : FVec Ideal S1600000 .f32)
    (n : Fin 100000) (k : Fin 128) :
    aggX X ei ew (ix2 n k) = (0 : EReal) + ∑ e : Fin 1600000,
      if (dstCol ei (ix2 e 0)).toInt = (n.val : Int) then
        nrm ei ew (ix1 e) * X (ix2 (Cert.LibGatherRows.clampRow (by decide : 0 < 100000) (wrap (srcV ei)) e) k) else 0 :=
  Cert.LibGraphAgg.agg_apply (by decide : 0 < 100000) scatter_S100000x128_S1600000x1_S1600000x128_1_0_0_1_wf
    gather_S100000x128_S1600000x1_S1600000x128_1_0_n_n_0_1_1128_wf bcast_S_S100000x128 bcast_S1600000_S1600000x1_0
    bcast_S1600000x1_S1600000x128_0_1 X (nrm ei ew) (wrap (srcV ei)) (dstCol ei) n k

theorem d2col_apply (ei : IVec S2x1600000 32) (ew : FVec Ideal S1600000 .f32) (n : Fin 100000) :
    d2col ei ew (ix2 n (0 : Fin 1)) = dinv ei ew (ix1 n) * dinv ei ew (ix1 n) := by
  unfold d2col
  rw [Cert.Lib.Keepdims.shapeCast_a_a1_apply, mulf_apply]

theorem biasRow_apply (b : FVec Ideal S64 .f32) (j : Fin 64) : biasRow b (ix2 (0 : Fin 1) j) = b (ix1 j) :=
  Cert.LibLreluRows.rowCast_apply _ b j

variable (m : (ℓ : Loc nD τ sig) → Buf (Elt Ideal) ℓ)

set_option maxRecDepth 8192 in
set_option maxHeartbeats 2000000 in
theorem V_v38 (c : Dev nD) : (V m c main_v38 : S100000x128.Idx → EReal)
    = aggX (m ((c : Thread nD τ).loc main_arg0)) (m ((c : Thread nD τ).loc main_arg1))
        (m ((c : Thread nD τ).loc main_arg2)) := by
  dsimp only [V]
  simp only [hostOps0]
  after_results_simp
  rfl

set_option maxRecDepth 8192 in
set_option maxHeartbeats 2000000 in
theorem V_v40 (c : Dev nD) : (V m c main_v40 : S100000x1.Idx → EReal)
    = d2col (m ((c : Thread nD τ).loc main_arg1)) (m ((c : Thread nD τ).loc main_arg2)) := by
  dsimp only [V]
  simp only [hostOps0]
  after_results_simp
  rfl

theorem V_v41 (c : Dev nD) : (V m c main_v41 : S1x64.Idx → EReal) = biasRow (m ((c : Thread nD τ).loc main_arg5)) := by
  dsimp only [V]
  simp only [hostOps0]
  after_results_simp
  rfl

theorem V_v42 (c : Dev nD) : (V m c main_v42 : S1x64.Idx → EReal) = biasRow (m ((c : Thread nD τ).loc main_arg7)) := by
  dsimp only [V]
  simp only [hostOps0]
  after_results_simp
  rfl

theorem V_v43 (c : Dev nD) : (V m c main_v43 : S1x64.Idx → EReal) = biasRow (m ((c : Thread nD τ).loc main_arg9)) := by
  dsimp only [V]
  simp only [hostOps0]
  after_results_simp
  rfl

theorem V_v44 (c : Dev nD) : (V m c main_v44 : S1x64.Idx → EReal) = biasRow (m ((c : Thread nD τ).loc main_arg11)) := by
  dsimp only [V]
  simp only [hostOps0]
  after_results_simp
  rfl

theorem V_v45 (c : Dev nD) : (V m c main_v45 : S1x64.Idx → EReal) = biasRow (m ((c : Thread nD τ).loc main_arg13)) := by
  dsimp only [V]
  simp only [hostOps0]
  after_results_simp
  rfl

theorem V_v46 (c : Dev nD) : (V m c main_v46 : S1x64.Idx → EReal) = biasRow (m ((c : Thread nD τ).loc main_arg15)) := by
  dsimp only [V]
  simp only [hostOps0]
  after_results_simp
  rfl

end Cert.KernelIdeal.KHost

end
-- ==== Proof.RValue.lean ====
/-
  The reference's result as one function of the inputs, and that function at an entry.

  The reference projects the node features with a convolution matrix first, aggregates the projected rows over the
  incoming edges, adds the self-loop term and the bias (a convolved row), and does so three times; a gate multiplies
  the convolved row and the hidden row, laid side by side, with the whole 128-row weight matrix.
-/
import proofs.«157769_j1855425872360_2_alg».proof.Proof.Gen.ReferenceIdeal.Run
import proofs.«157769_j1855425872360_2_alg».proof.Proof.LibGraphAgg
import proofs.«157769_j1855425872360_2_alg».proof.Proof.Spec

noncomputable section

namespace Cert.ReferenceIdeal.RValue

open Cert.ReferenceIdeal Cert.ReferenceIdeal.Gen Idealize.ShloMosaic Idealize.ShloMosaic.TcCoe
open Idealize.SL.Sem Idealize.ShloMosaic.ValueIdx Cert.Spec

/-- The source node of every edge, and the destination node: the two rows of the edge list. -/
def srcV (ei : IVec S2x1600000 32) : IVec S1600000 32 :=
  shapeCast S1600000 (extractStridedSlice S1x1600000 ![0, 0] ei slices_S2x1600000_S1x1600000_0_0)
    shapeCasts_S1x1600000_S1600000

def dstV (ei : IVec S2x1600000 32) : IVec S1600000 32 :=
  shapeCast S1600000 (extractStridedSlice S1x1600000 ![1, 0] ei slices_S2x1600000_S1x1600000_1_0)
    shapeCasts_S1x1600000_S1600000

/-- Node numbers as a column of gather indices, a negative number counted from the end. -/
def wrap (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The destination nodes as a column of scatter indices. -/
def dstCol (ei : IVec S2x1600000 32) : IVec S1600000x1 32 :=
  broadcastInDim S1600000x1 ![0] bcast_S1600000_S1600000x1_0 (dstV ei)

/-- A node's degree: the weights of its incoming edges, plus one for the self loop. -/
def deg (ei : IVec S2x1600000 32) (ew : FVec Ideal S1600000 .f32) : FVec Ideal S100000 .f32 :=
  addf (Host.scatterAdd scatter_S100000_S1600000x1_S1600000_n_0_0_1
      (broadcastInDim S100000 ![] bcast_S_S100000 (constant S_ .f32 0x00000000#32)) (dstCol ei) ew)
    (broadcastInDim S100000 ![] bcast_S_S100000 (constant S_ .f32 0x3F800000#32))

/-- The inverse root degree. -/
def dinv (ei : IVec S2x1600000 32) (ew : FVec Ideal S1600000 .f32) : FVec Ideal S100000 .f32 :=
  Host.rsqrt (deg ei ew)

/-- An edge's normalisation weight: inverse root degree of its source · its weight · inverse root degree of its
    destination. -/
def nrm (ei : IVec S2x1600000 32) (ew : FVec Ideal S1600000 .f32) : FVec Ideal S1600000 .f32 :=
  mulf (mulf (Host.gather gather_S100000_S1600000x1_S1600000_n_0_n_n_0_1_1 (dinv ei ew) (wrap (srcV ei))) ew)
    (Host.gather gather_S100000_S1600000x1_S1600000_n_0_n_n_0_1_1 (dinv ei ew) (wrap (dstV ei)))

/-- The features projected with a convolution matrix. -/
def proj (X : FVec Ideal S100000x128 .f32) (W : FVec Ideal S128x64 .f32) : FVec Ideal S100000x64 .f32 :=
  Host.dotGeneral dot_S100000x128_S128x64_S100000x64_1_0_0_1_n_n none X W

/-- A bias vector laid along every row. -/
def biasAll (b : FVec Ideal S64 .f32) : FVec Ideal S100000x64 .f32 :=
  broadcastInDim S100000x64 ![0, 1] bcast_S1x64_S100000x64_0_1 (broadcastInDim S1x64 ![1] bcast_S64_S1x64_1 b)

/-- A graph convolution: the projected rows aggregated over the incoming edges, the self-loop term, the bias. -/
def conv (X : FVec Ideal S100000x128 .f32) (ei : IVec S2x1600000 32) (ew : FVec Ideal S1600000 .f32)
    (W : FVec Ideal S128x64 .f32) (b : FVec Ideal S64 .f32) : FVec Ideal S100000x64 .f32 :=
  addf (addf (Host.scatterAdd scatter_S100000x64_S1600000x1_S1600000x64_1_0_0_1
        (broadcastInDim S100000x64 ![] bcast_S_S100000x64 (constant S_ .f32 0x00000000#32)) (dstCol ei)
        (mulf (broadcastInDim S1600000x64 ![0, 1] bcast_S1600000x1_S1600000x64_0_1
            (broadcastInDim S1600000x1 ![0] bcast_S1600000_S1600000x1_0 (nrm ei ew)))
          (Host.gather gather_S100000x64_S1600000x1_S1600000x64_1_0_n_n_0_1_164 (proj X W) (wrap (srcV ei)))))
      (mulf (broadcastInDim S100000x64 ![0, 1] bcast_S100000x1_S100000x64_0_1
          (broadcastInDim S100000x1 ![0] bcast_S100000_S100000x1_0 (mulf (dinv ei ew) (dinv ei ew)))) (proj X W)))
    (biasAll b)

/-- The constant one at every entry. -/
def ones : FVec Ideal S100000x64 .f32 :=
  broadcastInDim S100000x64 ![] bcast_S_S100000x64 (constant S_ .f32 0x3F800000#32)

/-- A gate before its nonlinearity: the two operands side by side times the weights, plus the bias. -/
def gateR (A B : FVec Ideal S100000x64 .f32) (Wl : FVec Ideal S128x64 .f32) (bl : FVec Ideal S64 .f32) :
    FVec Ideal S100000x64 .f32 :=
  addf (Host.dotGeneral dot_S100000x128_S128x64_S100000x64_1_0_0_1_n_n none
      (concatenate S100000x128 1 [⟨S100000x64, A⟩, ⟨S100000x64, B⟩] concatenates_S100000x64_S100000x64_S100000x128_d1)
      Wl) (biasAll bl)

/-- The logistic function as the reference spells it. -/
def sgm (v : FVec Ideal S100000x64 .f32) : FVec Ideal S100000x64 .f32 :=
  Host.divf ones (addf ones (Host.exp (Host.negf v)))

/-- The result from the three convolved arrays and the hidden state. -/
def outOf (Cz Cr Ch H : FVec Ideal S100000x64 .f32) (Wlz : FVec Ideal S128x64 .f32) (blz : FVec Ideal S64 .f32)
    (Wlr : FVec Ideal S128x64 .f32) (blr : FVec Ideal S64 .f32) (Wlh : FVec Ideal S128x64 .f32)
    (blh : FVec Ideal S64 .f32) : FVec Ideal S100000x64 .f32 :=
  addf (mulf (sgm (addf (gateR Cz H Wlz blz) Cz)) H)
    (mulf (subf ones (sgm (addf (gateR Cz H Wlz blz) Cz)))
      (addf (Host.tanh (gateR Ch (mulf H (sgm (addf (gateR Cr H Wlr blr) Cr))) Wlh blh)) Ch))

/-- The reference's result from its inputs. -/
def out (X : FVec Ideal S100000x128 .f32) (ei : IVec S2x1600000 32) (ew : FVec Ideal S1600000 .f32)
    (H : FVec Ideal S100000x64 .f32) (Wcz : FVec Ideal S128x64 .f32) (bcz : FVec Ideal S64 .f32)
    (Wlz : FVec Ideal S128x64 .f32) (blz : FVec Ideal S64 .f32) (Wcr : FVec Ideal S128x64 .f32)
    (bcr : FVec Ideal S64 .f32) (Wlr : FVec Ideal S128x64 .f32) (blr : FVec Ideal S64 .f32)
    (Wch : FVec Ideal S128x64 .f32) (bch : FVec Ideal S64 .f32) (Wlh : FVec Ideal S128x64 .f32)
    (blh : FVec Ideal S64 .f32) : FVec Ideal S100000x64 .f32 :=
  outOf (conv X ei ew Wcz bcz) (conv X ei ew Wcr bcr) (conv X ei ew Wch bch) H Wlz blz Wlr blr Wlh blh

/-! ## Read at an entry -/

/-- The inverse root of a positive degree is a real. -/
theorem rsqrt_real (d : FVec Ideal S100000 .f32) (hd : ∀ i, 0 < d i) (i : S100000.Idx) :
    IsReal (Host.rsqrt d i) := by
  show IsReal (Ideal.rsqrt (d i))
  obtain ⟨r, hr⟩ | htop : (∃ r : ℝ, d i = (r : EReal)) ∨ d i = ⊤ := by
    induction h : d i using EReal.rec with
    | bot => exact absurd (h ▸ hd i) (by simp)
    | coe r => exact Or.inl ⟨r, rfl⟩
    | top => exact Or.inr rfl
  · have hpos : 0 < r := by have := hd i; rw [hr] at this; exact_mod_cast this
    rw [hr, Ideal.rsqrt_coe, if_neg (not_lt.mpr hpos.le), if_neg hpos.ne']
    exact ⟨_, rfl⟩
  · rw [htop, Ideal.rsqrt_top]
    exact ⟨0, rfl⟩

theorem dinv_real (ei : IVec S2x1600000 32) (ew : FVec Ideal S1600000 .f32) (hdeg : ∀ i, 0 < deg ei ew i)
    (i : S100000.Idx) : IsReal (dinv ei ew i) :=
  rsqrt_real (deg ei ew) hdeg i

/-- An edge's normalisation weight from the inverse root degrees of its two ends. -/
theorem nrm_apply (ei : IVec S2x1600000 32) (ew : FVec Ideal S1600000 .f32) (e : Fin 1600000) :
    nrm ei ew (ix1 e)
      = (dinv ei ew (ix1 (Cert.LibGatherRows.clampRow (by decide : 0 < 100000) (wrap (srcV ei)) e)) * ew (ix1 e))
        * dinv ei ew (ix1 (Cert.LibGatherRows.clampRow (by decide : 0 < 100000) (wrap (dstV ei)) e)) := by
  unfold nrm
  rw [mulf_apply, mulf_apply]
  exact congrArg₂ (· * ·)
    (congrArg (· * ew (ix1 e)) (Cert.LibGatherRows.gather_entries_apply (by decide : 0 < 100000)
      gather_S100000_S1600000x1_S1600000_n_0_n_n_0_1_1_wf (dinv ei ew) (wrap (srcV ei)) e))
    (Cert.LibGatherRows.gather_entries_apply (by decide : 0 < 100000)
      gather_S100000_S1600000x1_S1600000_n_0_n_n_0_1_1_wf (dinv ei ew) (wrap (dstV ei)) e)

theorem proj_apply (X : FVec Ideal S100000x128 .f32) (W : FVec Ideal S128x64 .f32) (n : Fin 100000) (j : Fin 64) :
    proj X W (ix2 n j) = ∑ k : Fin 128, X (ix2 n k) * W (ix2 k j) :=
  Cert.LibPlainContract.dotGeneral_plain_apply 100000 128 64 none _ X W n j

/-- A convolved row of node n as the reference computes it. -/
def rowR (nrmE : Fin 1600000 → EReal) (sel : Fin 1600000 → Prop) [DecidablePred sel] (srcN : Fin 1600000 → Fin 100000)
    (dd : EReal) (X : S100000x128.Idx → EReal) (W : S128x64.Idx → EReal) (b : S64.Idx → EReal) (n : Fin 100000)
    (j : Fin 64) : EReal :=
  (((0 : EReal) + ∑ e : Fin 1600000, if sel e then nrmE e * ∑ k : Fin 128, X (ix2 (srcN e) k) * W (ix2 k j) else 0)
    + dd * ∑ k : Fin 128, X (ix2 n k) * W (ix2 k j)) + b (ix1 j)

theorem conv_apply (X : FVec Ideal S100000x128 .f32) (ei : IVec S2x1600000 32) (ew : FVec Ideal S1600000 .f32)
    (W : FVec Ideal S128x64 .f32) (b : FVec Ideal S64 .f32) (n : Fin 100000) (j : Fin 64) :
    conv X ei ew W b (ix2 n j)
      = rowR (fun e => nrm ei ew (ix1 e)) (fun e => (dstCol ei (ix2 e 0)).toInt = (n.val : Int))
          (fun e => Cert.LibGatherRows.clampRow (by decide : 0 < 100000) (wrap (srcV ei)) e)
          (dinv ei ew (ix1 n) * dinv ei ew (ix1 n)) X W b n j := by
  unfold conv rowR biasAll
  rw [addf_apply, addf_apply, mulf_apply, Cert.LibGraphAgg.spread_apply, Cert.LibLreluRows.biasRows_apply, mulf_apply,
    proj_apply]
  refine congrArg (· + b (ix1 j)) (congrArg (· + dinv ei ew (ix1 n) * dinv ei ew (ix1 n)
    * ∑ k : Fin 128, X (ix2 n k) * W (ix2 k j)) ?_)
  refine (Cert.LibGraphAgg.agg_apply (by decide : 0 < 100000) scatter_S100000x64_S1600000x1_S1600000x64_1_0_0_1_wf
    gather_S100000x64_S1600000x1_S1600000x64_1_0_n_n_0_1_164_wf bcast_S_S100000x64 bcast_S1600000_S1600000x1_0
    bcast_S1600000x1_S1600000x64_0_1 (proj X W) (nrm ei ew) (wrap (srcV ei)) (dstCol ei) n j).trans ?_
  refine congrArg ((0 : EReal) + ·) (Finset.sum_congr rfl fun e _ => ?_)
  rw [proj_apply]

theorem sgm_apply (v : FVec Ideal S100000x64 .f32) (i : S100000x64.Idx) : sgm v i = Ideal.logistic (v i) := by
  unfold sgm ones
  show Ideal.div (broadcastInDim S100000x64 ![] bcast_S_S100000x64 (constant (F := Ideal) S_ .f32 0x3F800000#32) i)
    (broadcastInDim S100000x64 ![] bcast_S_S100000x64 (constant (F := Ideal) S_ .f32 0x3F800000#32) i
      + Ideal.exp (-(v i))) = _
  rw [broadcastInDim_scalar_apply]
  show Ideal.div (Ideal.ofBits .f32 0x3F800000#32) (Ideal.ofBits .f32 0x3F800000#32 + Ideal.exp (-(v i))) = _
  rw [Ideal.ofBits_one_f32]
  rfl

theorem hostTanh_apply (v : FVec Ideal S100000x64 .f32) (i : S100000x64.Idx) : Host.tanh v i = Ideal.tanh (v i) := rfl

theorem ones_apply (i : S100000x64.Idx) : ones i = Ideal.ofBits .f32 0x3F800000#32 := by
  unfold ones
  rw [broadcastInDim_scalar_apply, constant_apply]

theorem gateR_apply (A B : FVec Ideal S100000x64 .f32) (Wl : FVec Ideal S128x64 .f32) (bl : FVec Ideal S64 .f32)
    (n : Fin 100000) (q : Fin 64) :
    gateR A B Wl bl (ix2 n q)
      = gate (fun k => A (ix2 n k)) (fun k => B (ix2 n k)) (fun k q => Wl (ix2 (lo k) q)) (fun k q => Wl (ix2 (hi k) q))
          (fun q => bl (ix1 q)) q := by
  unfold gateR gate biasAll
  rw [addf_apply, Cert.LibLreluRows.biasRows_apply]
  refine congrArg (· + bl (ix1 q)) ?_
  refine (Cert.LibPlainContract.dotGeneral_plain_apply 100000 128 64 none _ _ Wl n q).trans ?_
  rw [sum_halves]
  refine congrArg₂ (· + ·) (Finset.sum_congr rfl fun k _ => ?_) (Finset.sum_congr rfl fun k _ => ?_)
  · exact congrArg (· * Wl (ix2 (lo k) q)) (Cert.LibGraphAgg.concat_left A B _ n k)
  · exact congrArg (· * Wl (ix2 (hi k) q)) (Cert.LibGraphAgg.concat_right A B _ n k)

/-- The result at node n and column j: the gated cell of the node's three convolved rows. -/
theorem outOf_apply (Cz Cr Ch H : FVec Ideal S100000x64 .f32) (Wlz : FVec Ideal S128x64 .f32) (blz : FVec Ideal S64 .f32)
    (Wlr : FVec Ideal S128x64 .f32) (blr : FVec Ideal S64 .f32) (Wlh : FVec Ideal S128x64 .f32)
    (blh : FVec Ideal S64 .f32) (n : Fin 100000) (j : Fin 64) :
    outOf Cz Cr Ch H Wlz blz Wlr blr Wlh blh (ix2 n j)
      = cell (fun k => Cz (ix2 n k)) (fun k => Cr (ix2 n k)) (fun k => Ch (ix2 n k)) (fun k => H (ix2 n k))
          (fun k q => Wlz (ix2 (lo k) q)) (fun k q => Wlz (ix2 (hi k) q))
          (fun k q => Wlr (ix2 (lo k) q)) (fun k q => Wlr (ix2 (hi k) q))
          (fun k q => Wlh (ix2 (lo k) q)) (fun k q => Wlh (ix2 (hi k) q))
          (fun q => blz (ix1 q)) (fun q => blr (ix1 q)) (fun q => blh (ix1 q)) j := by
  unfold outOf
  simp only [addf_apply, mulf_apply, subf_apply, sgm_apply, gateR_apply, hostTanh_apply, ones_apply]
  unfold cell
  rfl

/-- The reference's result at node n and column j. -/
theorem out_apply (X : FVec Ideal S100000x128 .f32) (ei : IVec S2x1600000 32) (ew : FVec Ideal S1600000 .f32)
    (H : FVec Ideal S100000x64 .f32) (Wcz : FVec Ideal S128x64 .f32) (bcz : FVec Ideal S64 .f32)
    (Wlz : FVec Ideal S128x64 .f32) (blz : FVec Ideal S64 .f32) (Wcr : FVec Ideal S128x64 .f32)
    (bcr : FVec Ideal S64 .f32) (Wlr : FVec Ideal S128x64 .f32) (blr : FVec Ideal S64 .f32)
    (Wch : FVec Ideal S128x64 .f32) (bch : FVec Ideal S64 .f32) (Wlh : FVec Ideal S128x64 .f32)
    (blh : FVec Ideal S64 .f32) (n : Fin 100000) (j : Fin 64) :
    out X ei ew H Wcz bcz Wlz blz Wcr bcr Wlr blr Wch bch Wlh blh (ix2 n j)
      = cell (fun k => conv X ei ew Wcz bcz (ix2 n k)) (fun k => conv X ei ew Wcr bcr (ix2 n k))
          (fun k => conv X ei ew Wch bch (ix2 n k)) (fun k => H (ix2 n k))
          (fun k q => Wlz (ix2 (lo k) q)) (fun k q => Wlz (ix2 (hi k) q))
          (fun k q => Wlr (ix2 (lo k) q)) (fun k q => Wlr (ix2 (hi k) q))
          (fun k q => Wlh (ix2 (lo k) q)) (fun k q => Wlh (ix2 (hi k) q))
          (fun q => blz (ix1 q)) (fun q => blr (ix1 q)) (fun q => blh (ix1 q)) j :=
  outOf_apply (conv X ei ew Wcz bcz) (conv X ei ew Wcr bcr) (conv X ei ew Wch bch) H Wlz blz Wlr blr Wlh blh n j

end Cert.ReferenceIdeal.RValue

end
-- ==== Proof.Finite.lean ====
/-
  What the precondition says about the inputs, on the extended reals.

  The precondition is a conjunction of "every entry of this float input is smaller than +∞ in absolute value" over
  the float inputs, and of "every node's degree — the sum of the weights of its incoming edges plus one — is positive".
  An extended real whose absolute value is below +∞ is a real; the inverse square root of a positive extended real
  is a real (of +∞ it is 0).
-/
import proofs.«157769_j1855425872360_2_alg».proof.Proof.Gen.Pre_finite_inputs
import proofs.«157769_j1855425872360_2_alg».proof.Proof.Spec
import Idealize.ShloMosaic.Lib.ReduceAll
import Idealize.ShloMosaic.Lib.Affine
import Idealize.ShloMosaic.Lib.ValueIdx
import Idealize.ShloMosaic.Lib.IdealHost
import Idealize.ShloMosaic.PureOps.Ideal.Laws

noncomputable section

namespace Cert.Pre_finite_inputs.Decode

open Cert.Pre_finite_inputs Cert.Pre_finite_inputs.Facts Idealize.ShloMosaic Idealize.ShloMosaic.ValueIdx Cert.Spec

instance : Subsingleton S_.Idx := ⟨fun a b => funext fun d => d.elim0⟩

/-- An extended real whose absolute value is below the pattern of +∞ is a real. -/
theorem isReal_of_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- A comparison "greater than the pattern of zero" that holds says the value is positive. -/
theorem pos_of_ogt (x : EReal) (h : Ideal.cmp .ogt x (Ideal.ofBits .f32 0x00000000#32) = 1#1) : 0 < x := by
  rw [Ideal.ofBits_zero_f32] at h
  unfold Ideal.cmp at h
  by_contra hn
  simp [hn] at h

theorem pos_of_ogt' (x : EReal)
    (h : FloatOps.cmpf (F := Ideal) (φ := .f32) .ogt x (Ideal.ofBits .f32 0x00000000#32) = 1#1) : 0 < x :=
  pos_of_ogt x h

/-- The inverse square root of a positive extended real is a real. -/
theorem isReal_rsqrt {x : EReal} (h : 0 < x) : IsReal (Ideal.rsqrt x) := by
  induction x using EReal.rec with
  | bot => simp at h
  | coe r =>
    have hr : 0 < r := by exact_mod_cast h
    rw [Ideal.rsqrt_coe, if_neg (not_lt.mpr hr.le), if_neg hr.ne']
    exact ⟨_, rfl⟩
  | top => exact ⟨0, by rw [Ideal.rsqrt_top]; rfl⟩

theorem andi_one {a b : IVec S_ 1} {i : S_.Idx} (h : andi a b i = 1#1) : a i = 1#1 ∧ b i = 1#1 :=
  IntOp.andi_eq_one.mp h

/-- The node degrees as the precondition spells them: the weights scatter-added at each edge's destination, plus one. -/
def deg (ei : IVec S2x1600000 32) (ew : FVec Ideal S1600000 .f32) : FVec Ideal S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0
        (shapeCast S1600000 (extractStridedSlice S1x1600000 ![1, 0] ei slices_S2x1600000_S1x1600000_1_0)
          shapeCasts_S1x1600000_S1600000)) ew)
    (broadcastInDim S100000 ![] bcast_S_S100000 (constant S_ .f32 0x3F800000#32))

set_option maxRecDepth 100000 in
/-- The precondition gives: the node features, the edge weights and the three convolution matrices are real, and
    every node's degree is positive. -/
theorem decode (a0 : FVec Ideal S100000x128 .f32) (a1 : IVec S2x1600000 32) (a2 : FVec Ideal S1600000 .f32)
    (a3 : FVec Ideal S100000x64 .f32) (a4 : FVec Ideal S128x64 .f32) (a5 : FVec Ideal S64 .f32)
    (a6 : FVec Ideal S128x64 .f32) (a7 : FVec Ideal S64 .f32) (a8 : FVec Ideal S128x64 .f32) (a9 : FVec Ideal S64 .f32)
    (a10 : FVec Ideal S128x64 .f32) (a11 : FVec Ideal S64 .f32) (a12 : FVec Ideal S128x64 .f32)
    (a13 : FVec Ideal S64 .f32) (a14 : FVec Ideal S128x64 .f32) (a15 : FVec Ideal S64 .f32)
    (h : fn (F := Ideal) a0 a1 a2 a3 a4 a5 a6 a7 a8 a9 a10 a11 a12 a13 a14 a15 = fun _ => 1#1) :
    (∀ i, IsReal (a0 i)) ∧ (∀ i, IsReal (a2 i)) ∧ (∀ i, IsReal (a4 i)) ∧ (∀ i, IsReal (a8 i))
      ∧ (∀ i, IsReal (a12 i)) ∧ ∀ i, 0 < deg a1 a2 i := by
  have h0 := congrFun h ix0
  dsimp only [fn, fn_part1, fn_part2, fn_part3, fn_part4] at h0
  obtain ⟨h73, hdeg⟩ := andi_one h0
  obtain ⟨h68, -⟩ := andi_one h73
  obtain ⟨h63, -⟩ := andi_one h68
  obtain ⟨h58, -⟩ := andi_one h63
  obtain ⟨h53, h12⟩ := andi_one h58
  obtain ⟨h48, -⟩ := andi_one h53
  obtain ⟨h43, -⟩ := andi_one h48
  obtain ⟨h38, -⟩ := andi_one h43
  obtain ⟨h33, h8⟩ := andi_one h38
  obtain ⟨h28, -⟩ := andi_one h33
  obtain ⟨h23, -⟩ := andi_one h28
  obtain ⟨h18, -⟩ := andi_one h23
  obtain ⟨h13, h4⟩ := andi_one h18
  obtain ⟨h8', -⟩ := andi_one h13
  obtain ⟨h0', h2⟩ := andi_one h8'
  refine ⟨fun i => isReal_of_lt_inf _ (Host.reduce_andi_all _ _ _ _ _ h0' i),
    fun i => isReal_of_lt_inf _ (Host.reduce_andi_all _ _ _ _ _ h2 i),
    fun i => isReal_of_lt_inf _ (Host.reduce_andi_all _ _ _ _ _ h4 i),
    fun i => isReal_of_lt_inf _ (Host.reduce_andi_all _ _ _ _ _ h8 i),
    fun i => isReal_of_lt_inf _ (Host.reduce_andi_all _ _ _ _ _ h12 i),
    fun i => by
      have hd := Host.reduce_andi_all _ _ _ _ _ hdeg i
      rw [cmpf_apply, broadcastInDim_scalar_apply, constant_apply] at hd
      exact pos_of_ogt' (deg a1 a2 i) hd⟩

end Cert.Pre_finite_inputs.Decode

end
-- ==== Proof.Bridge.lean ====
/-
  The two programs compute one function of the inputs.

  Both programs hold, for every node, the same inverse root degree, the same edge weights and the same source and
  destination nodes: the host operations that compute them are the same in both. Under the precondition the node
  features, the edge weights and the convolution matrices are real and every degree is positive, so the inverse root
  degrees and the edge normalisation weights are real, and a convolved row computed by aggregating first and projecting
  afterwards equals the row computed by projecting first. The gated cell on top is the same expression.
-/
import proofs.«157769_j1855425872360_2_alg».proof.Proof.KValue
import proofs.«157769_j1855425872360_2_alg».proof.Proof.KHost
import proofs.«157769_j1855425872360_2_alg».proof.Proof.RValue
import proofs.«157769_j1855425872360_2_alg».proof.Proof.Finite

noncomputable section

namespace Cert.Bridge

open Idealize.ShloMosaic Idealize.ShloMosaic.ValueIdx Cert.Spec
open Cert.KernelIdeal (S100000x128 S2x1600000 S1600000 S100000x64 S128x64 S64 S100000)

variable (X : FVec Ideal S100000x128 .f32) (ei : IVec S2x1600000 32) (ew : FVec Ideal S1600000 .f32)

/-! ## The graph quantities of the two programs are the same terms -/

theorem nrm_eq : Cert.KernelIdeal.KHost.nrm ei ew = Cert.ReferenceIdeal.RValue.nrm ei ew := rfl
theorem dinv_eq : Cert.KernelIdeal.KHost.dinv ei ew = Cert.ReferenceIdeal.RValue.dinv ei ew := rfl
theorem src_eq : Cert.KernelIdeal.KHost.wrap (Cert.KernelIdeal.KHost.srcV ei) = Cert.ReferenceIdeal.RValue.wrap (Cert.ReferenceIdeal.RValue.srcV ei) := rfl
theorem dst_eq : Cert.KernelIdeal.KHost.dstCol ei = Cert.ReferenceIdeal.RValue.dstCol ei := rfl
theorem deg_eq : Cert.Pre_finite_inputs.Decode.deg ei ew = Cert.ReferenceIdeal.RValue.deg ei ew := rfl

/-! ## Under the precondition the graph quantities are real -/

theorem nrm_real (hew : ∀ i, IsReal (ew i)) (hdeg : ∀ i, 0 < Cert.ReferenceIdeal.RValue.deg ei ew i) (e : Fin 1600000) :
    IsReal (Cert.ReferenceIdeal.RValue.nrm ei ew (ix1 e)) := by
  rw [Cert.ReferenceIdeal.RValue.nrm_apply]
  exact ((Cert.ReferenceIdeal.RValue.dinv_real ei ew hdeg _).mul (hew _)).mul (Cert.ReferenceIdeal.RValue.dinv_real ei ew hdeg _)

/-- A convolved row: aggregating the features and projecting them is projecting them and aggregating. -/
theorem row_eq (W : FVec Ideal S128x64 .f32) (b : FVec Ideal S64 .f32)
    (hX : ∀ i, IsReal (X i)) (hew : ∀ i, IsReal (ew i)) (hW : ∀ i, IsReal (W i))
    (hdeg : ∀ i, 0 < Cert.ReferenceIdeal.RValue.deg ei ew i) (n : Fin 100000) (k : Fin 64) :
    Cert.KernelIdeal.KValue.rowV (Cert.KernelIdeal.KHost.aggX X ei ew) X (Cert.KernelIdeal.KHost.d2col ei ew) W (Cert.KernelIdeal.KHost.biasRow b) n k
      = Cert.ReferenceIdeal.RValue.conv X ei ew W b (ix2 n k) := by
  rw [Cert.ReferenceIdeal.RValue.conv_apply]
  unfold Cert.KernelIdeal.KValue.rowV Cert.ReferenceIdeal.RValue.rowR
  rw [Cert.KernelIdeal.KHost.biasRow_apply, Cert.KernelIdeal.KHost.d2col_apply]
  simp only [Cert.KernelIdeal.KHost.aggX_apply]
  rw [nrm_eq, dinv_eq, src_eq, dst_eq]
  refine congrArg (· + b (ix1 k)) ?_
  exact conv_eq (fun e => (Cert.ReferenceIdeal.RValue.dstCol ei (ix2 e 0)).toInt = (n.val : Int)) (fun e => Cert.ReferenceIdeal.RValue.nrm ei ew (ix1 e))
    (fun e k' => X (ix2 (Cert.LibGatherRows.clampRow (by decide : 0 < 100000) (Cert.ReferenceIdeal.RValue.wrap (Cert.ReferenceIdeal.RValue.srcV ei)) e) k'))
    (fun k' => X (ix2 n k')) (Cert.ReferenceIdeal.RValue.dinv ei ew (ix1 n) * Cert.ReferenceIdeal.RValue.dinv ei ew (ix1 n)) (fun k' => W (ix2 k' k))
    (nrm_real ei ew hew hdeg) (fun _ _ => hX _) (fun _ => hX _)
    ((Cert.ReferenceIdeal.RValue.dinv_real ei ew hdeg _).mul (Cert.ReferenceIdeal.RValue.dinv_real ei ew hdeg _)) (fun _ => hW _)

/-- The kernel's function of the arrays its launch finds is the reference's result. -/
theorem result_eq (H : FVec Ideal S100000x64 .f32) (Wcz : FVec Ideal S128x64 .f32) (bcz : FVec Ideal S64 .f32)
    (Wlz : FVec Ideal S128x64 .f32) (blz : FVec Ideal S64 .f32) (Wcr : FVec Ideal S128x64 .f32)
    (bcr : FVec Ideal S64 .f32) (Wlr : FVec Ideal S128x64 .f32) (blr : FVec Ideal S64 .f32)
    (Wch : FVec Ideal S128x64 .f32) (bch : FVec Ideal S64 .f32) (Wlh : FVec Ideal S128x64 .f32)
    (blh : FVec Ideal S64 .f32)
    (hX : ∀ i, IsReal (X i)) (hew : ∀ i, IsReal (ew i)) (hz : ∀ i, IsReal (Wcz i)) (hr : ∀ i, IsReal (Wcr i))
    (hh : ∀ i, IsReal (Wch i)) (hdeg : ∀ i, 0 < Cert.ReferenceIdeal.RValue.deg ei ew i) (i : S100000x64.Idx) :
    Cert.KernelIdeal.KValue.GV (Cert.KernelIdeal.KHost.aggX X ei ew) X (Cert.KernelIdeal.KHost.d2col ei ew) H Wcz Wcr Wch (Cert.KernelIdeal.KHost.biasRow bcz) (Cert.KernelIdeal.KHost.biasRow bcr)
        (Cert.KernelIdeal.KHost.biasRow bch) Wlz Wlr Wlh (Cert.KernelIdeal.KHost.biasRow blz) (Cert.KernelIdeal.KHost.biasRow blr) (Cert.KernelIdeal.KHost.biasRow blh) (i 0) (i 1)
      = Cert.ReferenceIdeal.RValue.out X ei ew H Wcz bcz Wlz blz Wcr bcr Wlr blr Wch bch Wlh blh i := by
  obtain ⟨n, j, rfl⟩ : ∃ (n : Fin 100000) (j : Fin 64), i = ix2 n j := ⟨i 0, i 1, eq_ix2 i⟩
  rw [Cert.ReferenceIdeal.RValue.out_apply]
  show Cert.KernelIdeal.KValue.GV (Cert.KernelIdeal.KHost.aggX X ei ew) X (Cert.KernelIdeal.KHost.d2col ei ew) H Wcz Wcr Wch (Cert.KernelIdeal.KHost.biasRow bcz) (Cert.KernelIdeal.KHost.biasRow bcr)
        (Cert.KernelIdeal.KHost.biasRow bch) Wlz Wlr Wlh (Cert.KernelIdeal.KHost.biasRow blz) (Cert.KernelIdeal.KHost.biasRow blr) (Cert.KernelIdeal.KHost.biasRow blh) n j = _
  unfold Cert.KernelIdeal.KValue.GV
  rw [show Cert.KernelIdeal.KValue.rowV (Cert.KernelIdeal.KHost.aggX X ei ew) X (Cert.KernelIdeal.KHost.d2col ei ew) Wcz (Cert.KernelIdeal.KHost.biasRow bcz) n
        = fun k => Cert.ReferenceIdeal.RValue.conv X ei ew Wcz bcz (ix2 n k) from funext fun k => row_eq X ei ew Wcz bcz hX hew hz hdeg n k,
    show Cert.KernelIdeal.KValue.rowV (Cert.KernelIdeal.KHost.aggX X ei ew) X (Cert.KernelIdeal.KHost.d2col ei ew) Wcr (Cert.KernelIdeal.KHost.biasRow bcr) n
        = fun k => Cert.ReferenceIdeal.RValue.conv X ei ew Wcr bcr (ix2 n k) from funext fun k => row_eq X ei ew Wcr bcr hX hew hr hdeg n k,
    show Cert.KernelIdeal.KValue.rowV (Cert.KernelIdeal.KHost.aggX X ei ew) X (Cert.KernelIdeal.KHost.d2col ei ew) Wch (Cert.KernelIdeal.KHost.biasRow bch) n
        = fun k => Cert.ReferenceIdeal.RValue.conv X ei ew Wch bch (ix2 n k) from funext fun k => row_eq X ei ew Wch bch hX hew hh hdeg n k]
  simp only [Cert.KernelIdeal.KHost.biasRow_apply]

end Cert.Bridge

end
-- ==== Proof.lean ====
/-
  The certificate of a graph-convolutional gated recurrent cell: the kernel, its idealization and the reference run and
  keep their arguments, and on the extended reals the idealized kernel and the idealized reference end with equal
  results.

  Both programs compute, per node, the inverse root degree from the edge weights and, per edge, the symmetric
  normalisation weight. The kernel aggregates the 128 node features over the incoming edges once, adds the self-loop
  term inside its body and multiplies with the three convolution matrices there; the reference multiplies the features
  with each convolution matrix first and aggregates the 64 projected features three times. The two agree because
  aggregation is linear — a law that needs every number involved to be a real, which the precondition gives: finite
  inputs and positive degrees (outside which the reference's inverse square root is infinite or undefined). The gates
  are the same expression once a product with two row-stacked weight halves is split in two.
-/
import proofs.«157769_j1855425872360_2_alg».proof.Defs
import proofs.«157769_j1855425872360_2_alg».proof.Proof.Gen.Kernel
import proofs.«157769_j1855425872360_2_alg».proof.Proof.Gen.Kernel.Skeleton
import proofs.«157769_j1855425872360_2_alg».proof.Proof.Gen.Kernel.Launch
import proofs.«157769_j1855425872360_2_alg».proof.Proof.Gen.Kernel.Points
import proofs.«157769_j1855425872360_2_alg».proof.Proof.Gen.Kernel.Frame
import proofs.«157769_j1855425872360_2_alg».proof.Proof.Gen.KernelIdeal
import proofs.«157769_j1855425872360_2_alg».proof.Proof.Gen.KernelIdeal.Skeleton
import proofs.«157769_j1855425872360_2_alg».proof.Proof.Gen.KernelIdeal.Launch
import proofs.«157769_j1855425872360_2_alg».proof.Proof.Gen.KernelIdeal.Points
import proofs.«157769_j1855425872360_2_alg».proof.Proof.Gen.KernelIdeal.Frame
import proofs.«157769_j1855425872360_2_alg».proof.Proof.Gen.ReferenceIdeal
import proofs.«157769_j1855425872360_2_alg».proof.Proof.Gen.Pre_finite_inputs
import proofs.«157769_j1855425872360_2_alg».proof.Proof.Gen.KernelIdeal.Value
import proofs.«157769_j1855425872360_2_alg».proof.Proof.Gen.ReferenceIdeal.Run
import proofs.«157769_j1855425872360_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's run leaves its result at the reference's function of its arguments. -/
theorem ref_term (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v160)
          = Cert.ReferenceIdeal.RValue.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)) :=
  (θ_run Cert.ReferenceIdeal.defs _ _).mono (fun _ h c => ⟨(h c).1.trans rfl, (h c).2⟩)
    (Cert.ReferenceIdeal.Value.run (F := Ideal) m ρ)

/-- The kernel's function of the arrays its launch finds, once those arrays are known. -/
theorem gk_eq (m : (ℓ : Loc Cert.KernelIdeal.nD Cert.KernelIdeal.τ Cert.KernelIdeal.sig) → Buf (Elt Ideal) ℓ) (c : Dev Cert.KernelIdeal.nD)
    {A0 : Cert.KernelIdeal.S100000x128.Idx → EReal} {A1 : Cert.KernelIdeal.S100000x128.Idx → EReal} {A2 : Cert.KernelIdeal.S100000x1.Idx → EReal} {A3 : Cert.KernelIdeal.S100000x64.Idx → EReal} {A4 : Cert.KernelIdeal.S128x64.Idx → EReal} {A5 : Cert.KernelIdeal.S1x64.Idx → EReal} {A6 : Cert.KernelIdeal.S128x64.Idx → EReal} {A7 : Cert.KernelIdeal.S1x64.Idx → EReal} {A8 : Cert.KernelIdeal.S128x64.Idx → EReal} {A9 : Cert.KernelIdeal.S1x64.Idx → EReal} {A10 : Cert.KernelIdeal.S128x64.Idx → EReal} {A11 : Cert.KernelIdeal.S1x64.Idx → EReal} {A12 : Cert.KernelIdeal.S128x64.Idx → EReal} {A13 : Cert.KernelIdeal.S1x64.Idx → EReal} {A14 : Cert.KernelIdeal.S128x64.Idx → EReal} {A15 : Cert.KernelIdeal.S1x64.Idx → EReal}
    (h0 : (Cert.KernelIdeal.Gen.V m c (Pipeline.arrRef Cert.KernelIdeal.spec0 0) : Cert.KernelIdeal.S100000x128.Idx → EReal) = A0)
    (h1 : (Cert.KernelIdeal.Gen.V m c (Pipeline.arrRef Cert.KernelIdeal.spec0 1) : Cert.KernelIdeal.S100000x128.Idx → EReal) = A1)
    (h2 : (Cert.KernelIdeal.Gen.V m c (Pipeline.arrRef Cert.KernelIdeal.spec0 2) : Cert.KernelIdeal.S100000x1.Idx → EReal) = A2)
    (h3 : (Cert.KernelIdeal.Gen.V m c (Pipeline.arrRef Cert.KernelIdeal.spec0 3) : Cert.KernelIdeal.S100000x64.Idx → EReal) = A3)
    (h4 : (Cert.KernelIdeal.Gen.V m c (Pipeline.arrRef Cert.KernelIdeal.spec0 4) : Cert.KernelIdeal.S128x64.Idx → EReal) = A4)
    (h5 : (Cert.KernelIdeal.Gen.V m c (Pipeline.arrRef Cert.KernelIdeal.spec0 5) : Cert.KernelIdeal.S1x64.Idx → EReal) = A5)
    (h6 : (Cert.KernelIdeal.Gen.V m c (Pipeline.arrRef Cert.KernelIdeal.spec0 6) : Cert.KernelIdeal.S128x64.Idx → EReal) = A6)
    (h7 : (Cert.KernelIdeal.Gen.V m c (Pipeline.arrRef Cert.KernelIdeal.spec0 7) : Cert.KernelIdeal.S1x64.Idx → EReal) = A7)
    (h8 : (Cert.KernelIdeal.Gen.V m c (Pipeline.arrRef Cert.KernelIdeal.spec0 8) : Cert.KernelIdeal.S128x64.Idx → EReal) = A8)
    (h9 : (Cert.KernelIdeal.Gen.V m c (Pipeline.arrRef Cert.KernelIdeal.spec0 9) : Cert.KernelIdeal.S1x64.Idx → EReal) = A9)
    (h10 : (Cert.KernelIdeal.Gen.V m c (Pipeline.arrRef Cert.KernelIdeal.spec0 10) : Cert.KernelIdeal.S128x64.Idx → EReal) = A10)
    (h11 : (Cert.KernelIdeal.Gen.V m c (Pipeline.arrRef Cert.KernelIdeal.spec0 11) : Cert.KernelIdeal.S1x64.Idx → EReal) = A11)
    (h12 : (Cert.KernelIdeal.Gen.V m c (Pipeline.arrRef Cert.KernelIdeal.spec0 12) : Cert.KernelIdeal.S128x64.Idx → EReal) = A12)
    (h13 : (Cert.KernelIdeal.Gen.V m c (Pipeline.arrRef Cert.KernelIdeal.spec0 13) : Cert.KernelIdeal.S1x64.Idx → EReal) = A13)
    (h14 : (Cert.KernelIdeal.Gen.V m c (Pipeline.arrRef Cert.KernelIdeal.spec0 14) : Cert.KernelIdeal.S128x64.Idx → EReal) = A14)
    (h15 : (Cert.KernelIdeal.Gen.V m c (Pipeline.arrRef Cert.KernelIdeal.spec0 15) : Cert.KernelIdeal.S1x64.Idx → EReal) = A15) :
    Cert.KernelIdeal.KValue.Gk m c = fun i => Cert.KernelIdeal.KValue.GV A0 A1 A2 A3 A4 A8 A12 A5 A9 A13 A6 A10 A14 A7 A11 A15 (i 0) (i 1) := by
  subst h0 h1 h2 h3 h4 h5 h6 h7 h8 h9 h10 h11 h12 h13 h14 h15
  rfl

set_option maxHeartbeats 4000000 in
theorem kernel_fn (m : (ℓ : Loc Cert.KernelIdeal.nD Cert.KernelIdeal.τ Cert.KernelIdeal.sig) → Buf (Elt Ideal) ℓ) (c : Dev Cert.KernelIdeal.nD) :
    Cert.KernelIdeal.KValue.Gk m c = fun i => Cert.KernelIdeal.KValue.GV
          (Cert.KernelIdeal.KHost.aggX (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (m ((c.tc : Thread Cert.KernelIdeal.nD Cert.KernelIdeal.τ).loc Cert.KernelIdeal.main_arg0))
          (Cert.KernelIdeal.KHost.d2col (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8))
          (m ((c.tc : Thread Cert.KernelIdeal.nD Cert.KernelIdeal.τ).loc Cert.KernelIdeal.main_arg12))
          (Cert.KernelIdeal.KHost.biasRow (m ((c.tc : Thread Cert.KernelIdeal.nD Cert.KernelIdeal.τ).loc Cert.KernelIdeal.main_arg5)))
          (Cert.KernelIdeal.KHost.biasRow (m ((c.tc : Thread Cert.KernelIdeal.nD Cert.KernelIdeal.τ).loc Cert.KernelIdeal.main_arg9)))
          (Cert.KernelIdeal.KHost.biasRow (m ((c.tc : Thread Cert.KernelIdeal.nD Cert.KernelIdeal.τ).loc Cert.KernelIdeal.main_arg13)))
          (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg14))
          (Cert.KernelIdeal.KHost.biasRow (m ((c.tc : Thread Cert.KernelIdeal.nD Cert.KernelIdeal.τ).loc Cert.KernelIdeal.main_arg7)))
          (Cert.KernelIdeal.KHost.biasRow (m ((c.tc : Thread Cert.KernelIdeal.nD Cert.KernelIdeal.τ).loc Cert.KernelIdeal.main_arg11)))
          (Cert.KernelIdeal.KHost.biasRow (m ((c.tc : Thread Cert.KernelIdeal.nD Cert.KernelIdeal.τ).loc Cert.KernelIdeal.main_arg15))) (i 0) (i 1) :=
  gk_eq m c (Cert.KernelIdeal.KHost.V_v38 m c) (Cert.KernelIdeal.Gen.V_main_arg0 m c) (Cert.KernelIdeal.KHost.V_v40 m c) (Cert.KernelIdeal.Gen.V_main_arg3 m c)
    (Cert.KernelIdeal.Gen.V_main_arg4 m c) (Cert.KernelIdeal.KHost.V_v41 m c) (Cert.KernelIdeal.Gen.V_main_arg6 m c) (Cert.KernelIdeal.KHost.V_v42 m c)
    (Cert.KernelIdeal.Gen.V_main_arg8 m c) (Cert.KernelIdeal.KHost.V_v43 m c) (Cert.KernelIdeal.Gen.V_main_arg10 m c) (Cert.KernelIdeal.KHost.V_v44 m c)
    (Cert.KernelIdeal.Gen.V_main_arg12 m c) (Cert.KernelIdeal.KHost.V_v45 m c) (Cert.KernelIdeal.Gen.V_main_arg14 m c) (Cert.KernelIdeal.KHost.V_v46 m c)

/-- On the extended reals the idealized kernel and the idealized reference end with equal results. -/
theorem algebraic : Cert.algebraic_KernelIdeal_ReferenceIdeal := by
  intro m ρ m' ρ' hpre hagree
  refine ⟨fun c => Cert.KernelIdeal.KValue.Gk m c,
    (θ_run Cert.KernelIdeal.defs _ _).mono (fun r h c => ⟨(h c).1.trans (Cert.KernelIdeal.KValue.final m c), (h c).2⟩)
      (Cert.KernelIdeal.Value.run_blocks m ρ), ?_⟩
  refine (θ_run Cert.ReferenceIdeal.defs _ _).mono (fun r h c => ⟨(h c).1.trans ?_, (h c).2⟩) (ref_term m' ρ')
  obtain ⟨e0, e1, e2, e3, e4, e5, e6, e7, e8, e9, e10, e11, e12, e13, e14, e15⟩ := hagree c
  rw [e0, e1, e2, e3, e4, e5, e6, e7, e8, e9, e10, e11, e12, e13, e14, e15]
  obtain ⟨hX, hew, hz, hr, hh, hdeg⟩ := Cert.Pre_finite_inputs.Decode.decode _ _ _ _ _ _ _ _ _ _ _ _ _ _ _ _ (hpre c)
  funext i
  show _ = Cert.KernelIdeal.KValue.Gk m c i
  rw [kernel_fn m c]
  exact (Cert.Bridge.result_eq _ _ _ _ _ _ _ _ _ _ _ _ _ _ _ _ hX hew hz hr hh
    (fun j => by rw [← Cert.Bridge.deg_eq]; exact hdeg j) i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
